-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x25 : Shape := ⟨2, ![2097152, 25]⟩
abbrev S_ : Shape := ⟨0, ![]⟩

class Facts : Prop where
  bcast_S_S2097152x25 : S_.BroadcastsInDim S2097152x25 (![] : Fin 0 → Fin S2097152x25.rank)
  reducesTo_S2097152x25_S_d0_1 : S2097152x25.ReducesTo [0, 1] S_
  h_S_ : 0 < S_.numel

variable [Facts]

def fn {F : FTy → Type} [FloatOps F] (main_arg0 : FVec F S2097152x25 .f32) (main_arg1 : FVec F S2097152x25 .f32) : IVec S_ 1 :=
  let main_v0 : FVec F S2097152x25 .f32 := Host.absf main_arg0
  let main_cst : FVec F S_ .f32 := constant S_ .f32 0x7F800000#32
  let main_v1 : FVec F S2097152x25 .f32 := broadcastInDim S2097152x25 ![] bcast_S_S2097152x25 main_cst
  let main_v2 : IVec S2097152x25 1 := cmpf .olt main_v0 main_v1
  let main_c : IVec S_ 1 := constantI S_ 1 1#1
  let main_v3 : IVec S_ 1 := (fun x v => Host.reduce IntOp.andi x v reducesTo_S2097152x25_S_d0_1 h_S_) main_v2 main_c
  let main_v4 : FVec F S2097152x25 .f32 := Host.absf main_arg1
  let main_cst_0 : FVec F S_ .f32 := constant S_ .f32 0x7F800000#32
  let main_v5 : FVec F S2097152x25 .f32 := broadcastInDim S2097152x25 ![] bcast_S_S2097152x25 main_cst_0
  let main_v6 : IVec S2097152x25 1 := cmpf .olt main_v4 main_v5
  let main_c_1 : IVec S_ 1 := constantI S_ 1 1#1
  let main_v7 : IVec S_ 1 := (fun x v => Host.reduce IntOp.andi x v reducesTo_S2097152x25_S_d0_1 h_S_) main_v6 main_c_1
  let main_v8 : IVec S_ 1 := andi main_v3 main_v7
  main_v8
-- ==== Kernel.lean ====
abbrev S2097152x25 : Shape := ⟨2, ![2097152, 25]⟩
abbrev S1x256 : Shape := ⟨2, ![1, 256]⟩
abbrev S8192x25 : Shape := ⟨2, ![8192, 25]⟩
abbrev S1x128 : Shape := ⟨2, ![1, 128]⟩
abbrev S8192x24 : Shape := ⟨2, ![8192, 24]⟩
abbrev S24x24 : Shape := ⟨2, ![24, 24]⟩
abbrev S24 : Shape := ⟨1, ![24]⟩
abbrev S1x24 : Shape := ⟨2, ![1, 24]⟩
abbrev S1x1x128 : Shape := ⟨3, ![1, 1, 128]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S2097152x25, .f32⟩
  | .hbm, ⟨1, _⟩ => ⟨S2097152x25, .f32⟩
  | .hbm, ⟨2, _⟩ => ⟨S1x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S8192x25, .f32⟩
  | .local _ .vmem, ⟨1, _⟩ => ⟨S8192x25, .f32⟩
  | .local _ .vmem, ⟨2, _⟩ => ⟨S8192x25, .f32⟩
  | .local _ .vmem, ⟨3, _⟩ => ⟨S8192x25, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S2097152x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v73 : BitVec 1 := Scalar.cmpi .eq arg1 c127_i32
  let v74 : BitVec 32 := Scalar.extui v73
  let c0_i32_24 : BitVec 32 := 0#32
  let v75 : BitVec 1 := Scalar.cmpi .ne v74 c0_i32_24
  v75

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8192x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x25_S8192x24_0_0 : ∀ a, (![0, 0] : Fin 2 → Nat) a + S8192x24.size a ≤ S8192x25.size a
  h_S8192x24 : 0 < S8192x24.numel
  iota_S24x24_d0_w32 : S24x24.Iotas .tc 32 [0]
  natLt_1_32 : 1 < 32
  iota_S24x24_d1_w32 : S24x24.Iotas .tc 32 [1]
  reduces_S8192x24_S24 : S8192x24.Reduces [0] S24
  shapeCasts_S24_S1x24 : S24.ShapeCasts S1x24
  inb_S1x128_S1x24_0_0 : ∀ a, (![0, 0] : Fin 2 → Nat) a + S1x24.size a ≤ S1x128.size a
  h_S1x24 : 0 < S1x24.numel
  shapeCasts_S1x24_S1x24 : S1x24.ShapeCasts S1x24
  shapeCasts_S1x128_S1x1x128 : S1x128.ShapeCasts S1x1x128
  reduces_S1x1x128_S1 : S1x1x128.Reduces [1, 2] S1
  shapeCasts_S1_S1x1x1 : S1.ShapeCasts S1x1x1
  inpos_S1x1x1_p0_0_0 : ∀ a, (![0, 0, 0] : Fin 3 → Nat) a < S1x1x1.size a
  iota_S1x128_d1_w32 : S1x128.Iotas .tc 32 [1]
  reducesTo_S1x256_S_d0_1 : S1x256.ReducesTo [0, 1] S_
  h_S_ : 0 < S_.numel
  dot_S8192x24_S24x24_S8192x24_1_0_0_1_n_n_wf : DotDims.WF S8192x24 S24x24 S8192x24 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x25.size a ≤ S2097152x25.size a
  hwx0_0 : ∀ i : grid0.Coords, EltTy.bits .f32 = 32 ∨ (Rect.block (s := S2097152x25) S8192x25.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x25.size a ≤ S2097152x25.size a
  hwx0_1 : ∀ i : grid0.Coords, EltTy.bits .f32 = 32 ∨ (Rect.block (s := S2097152x25) S8192x25.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x256.size a
  hwx0_2 : ∀ i : grid0.Coords, EltTy.bits .f32 = 32 ∨ (Rect.block (s := S1x256) S1x128.size (cc0_transform_2 i) (hinb0_2 i)).WholeWords (EltTy.packing .f32)

variable [Facts₀]

def dot_S8192x24_S24x24_S8192x24_1_0_0_1_n_n : DotDims S8192x24 S24x24 S8192x24 where
  lhsContracting := [1]
  rhsContracting := [0]
  lhsNonContracting := [0]
  rhsNonContracting := [1]
  lhsBatch := []
  rhsBatch := []
  wf := dot_S8192x24_S24x24_S8192x24_1_0_0_1_n_n_wf

abbrev win0_0 : Pipeline.Window sig grid0 :=
  Pipeline.Window.ofSpec (Memref.whole main_arg0) S8192x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x25.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2097152x25 : Shape := ⟨2, ![2097152, 25]⟩
abbrev S2097152x24 : Shape := ⟨2, ![2097152, 24]⟩
abbrev S2097152x6x4 : Shape := ⟨3, ![2097152, 6, 4]⟩
abbrev S_ : Shape := ⟨0, ![]⟩
abbrev S2097152x6 : Shape := ⟨2, ![2097152, 6]⟩
abbrev S2097152x6x1 : Shape := ⟨3, ![2097152, 6, 1]⟩
abbrev S2097152 : Shape := ⟨1, ![2097152]⟩

abbrev nBuf : Space → Nat
  | .hbm => 34
  | .vmem => 0
  | .smem => 0
  | _ => 0

abbrev bufTy : (tb : Table) → Fin (tcTables nBuf tb) → BufTy
  | .hbm, ⟨0, _⟩ => ⟨S2097152x25, .f32⟩
  | .hbm, ⟨1, _⟩ => ⟨S2097152x25, .f32⟩
  | .hbm, ⟨2, _⟩ => ⟨S2097152x24, .f32⟩
  | .hbm, ⟨3, _⟩ => ⟨S2097152x6x4, .f32⟩
  | .hbm, ⟨4, _⟩ => ⟨S_, .f32⟩
  | .hbm, ⟨5, _⟩ => ⟨S2097152x6, .f32⟩
  | .hbm, ⟨6, _⟩ => ⟨S_, .f32⟩
  | .hbm, ⟨7, _⟩ => ⟨S2097152x6, .f32⟩
  | .hbm, ⟨8, _⟩ => ⟨S2097152x6, .f32⟩
  | .hbm, ⟨9, _⟩ => ⟨S2097152x6x1, .f32⟩
  | .hbm, ⟨10, _⟩ => ⟨S2097152x6x4, .f32⟩
  | .hbm, ⟨11, _⟩ => ⟨S2097152x6x4, .f32⟩
  | .hbm, ⟨12, _⟩ => ⟨S2097152x6x4, .f32⟩
  | .hbm, ⟨13, _⟩ => ⟨S_, .f32⟩
  | .hbm, ⟨14, _⟩ => ⟨S2097152x6, .f32⟩
  | .hbm, ⟨15, _⟩ => ⟨S2097152x6x1, .f32⟩
  | .hbm, ⟨16, _⟩ => ⟨S2097152x6x4, .f32⟩
  | .hbm, ⟨17, _⟩ => ⟨S2097152x6x4, .f32⟩
  | .hbm, ⟨18, _⟩ => ⟨S_, .f32⟩
  | .hbm, ⟨19, _⟩ => ⟨S2097152x6x4, .f32⟩
  | .hbm, ⟨20, _⟩ => ⟨S2097152x6x4, .f32⟩
  | .hbm, ⟨21, _⟩ => ⟨S2097152x24, .f32⟩
  | .hbm, ⟨22, _⟩ => ⟨S2097152x24, .f32⟩
  | .hbm, ⟨23, _⟩ => ⟨S2097152x24, .f32⟩
  | .hbm, ⟨24, _⟩ => ⟨S2097152x24, .f32⟩
  | .hbm, ⟨25, _⟩ => ⟨S_, .f32⟩
  | .hbm, ⟨26, _⟩ => ⟨S2097152, .f32⟩
  | .hbm, ⟨27, _⟩ => ⟨S_, .f32⟩
  | .hbm, ⟨28, _⟩ => ⟨S2097152, .f32⟩
  | .hbm, ⟨29, _⟩ => ⟨S2097152, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S2097152x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  slices_S2097152x25_S2097152x24_0_0 : S2097152x25.Slices ![0, 0] S2097152x24
  shapeCasts_S2097152x24_S2097152x6x4 : S2097152x24.ShapeCasts S2097152x6x4
  reducesTo_S2097152x6x4_S2097152x6_d2 : S2097152x6x4.ReducesTo [2] S2097152x6
  h_S_ : 0 < S_.numel
  bcast_S_S2097152x6 : S_.BroadcastsInDim S2097152x6 (![] : Fin 0 → Fin S2097152x6.rank)
  bcast_S2097152x6_S2097152x6x1_0_1 : S2097152x6.BroadcastsInDim S2097152x6x1 (![0, 1] : Fin 2 → Fin S2097152x6x1.rank)
  bcast_S2097152x6x1_S2097152x6x4_0_1_2 : S2097152x6x1.BroadcastsInDim S2097152x6x4 (![0, 1, 2] : Fin 3 → Fin S2097152x6x4.rank)
  bcast_S_S2097152x6x4 : S_.BroadcastsInDim S2097152x6x4 (![] : Fin 0 → Fin S2097152x6x4.rank)
  shapeCasts_S2097152x6x4_S2097152x24 : S2097152x6x4.ShapeCasts S2097152x24
  reducesTo_S2097152x24_S2097152_d1 : S2097152x24.ReducesTo [1] S2097152
  bcast_S_S2097152 : S_.BroadcastsInDim S2097152 (![] : Fin 0 → Fin S2097152.rank)
  reducesTo_S2097152_S_d0 : S2097152.ReducesTo [0] S_

variable [Facts₀]

class Facts : Prop extends Facts₀ where

variable [Facts]
-- ==== Proof.SoftmaxLoss.lean ====
/-
  The quantity both programs compute, over the reals.

  The inputs are two arrays of 2097152 rows and 25 columns; only the first 24 columns take part. The 24
  columns of a row split into six consecutive groups of four. Within each group the first array is sent
  through the softmax of the group, scaled by 3, and compared with the second array: the squared error at
  row `b`, column `j` is `(3 · exp p_{b,j} / (∑ over the four columns of j's group of exp p_{b,·}) − t_{b,j})²`.
  The loss is the mean of the squared error over all `2097152 · 24 = 50331648` entries.
-/
import Idealize.ShloMosaic.PureOps.Ideal
import Idealize.ShloMosaic.Lib.ValueIdx

noncomputable section

open scoped BigOperators

namespace Cert.SoftmaxLoss

open Idealize.ShloMosaic Idealize.ShloMosaic.ValueIdx

/-- The shape of each input array. -/
abbrev SIn : Shape := ⟨2, ![2097152, 25]⟩

/-- Column `j` of the 24 used columns, as a column of the 25-wide array. -/
def col (j : Fin 24) : Fin 25 := ⟨j.val, by omega⟩

/-- The `i`-th column of the group of four consecutive columns that column `j` lies in. -/
def grp (j : Fin 24) (i : Fin 4) : Fin 25 := ⟨4 * (j.val / 4) + i.val, by omega⟩

/-- Three times the softmax of row `b` over column `j`'s group, minus the target entry. -/
def err (P T : SIn.Idx → ℝ) (b : Fin 2097152) (j : Fin 24) : ℝ :=
  3 * Real.exp (P (ix2 b (col j))) / (∑ i : Fin 4, Real.exp (P (ix2 b (grp j i)))) - T (ix2 b (col j))

/-- The squared error at row `b`, column `j`. -/
def sqErr (P T : SIn.Idx → ℝ) (b : Fin 2097152) (j : Fin 24) : ℝ := err P T b j * err P T b j

/-- The sum of the squared errors over every row and every used column. -/
def total (P T : SIn.Idx → ℝ) : ℝ := ∑ b : Fin 2097152, ∑ j : Fin 24, sqErr P T b j

/-- The loss: the mean squared error over the `50331648` entries. -/
def loss (P T : SIn.Idx → ℝ) : ℝ := total P T / 50331648

/-- The sum of a group's exponentials is positive, so the softmax never divides by zero. -/
theorem grp_sum_pos (P : SIn.Idx → ℝ) (b : Fin 2097152) (j : Fin 24) :
    0 < ∑ i : Fin 4, Real.exp (P (ix2 b (grp j i))) :=
  Finset.sum_pos (fun _ _ => Real.exp_pos _) Finset.univ_nonempty

end Cert.SoftmaxLoss

end
-- ==== Proof.FiniteInputs.lean ====
/-
  From the precondition to real-valued inputs.

  The precondition states that every entry of both input arrays has absolute value below +∞. Over the
  extended reals this excludes exactly the two infinities, so each array is the coercion of an array of
  real numbers.
-/
import proofs.«116759_j5935644803606_2_alg».proof.Pre_finite_inputs
import proofs.«116759_j5935644803606_2_alg».proof.Proof.SoftmaxLoss
import Idealize.ShloMosaic.Lib.ReduceAll
import Idealize.ShloMosaic.Lib.ValueIdx

noncomputable section

namespace Cert.FiniteInputs

open Idealize.ShloMosaic Idealize.ShloMosaic.ValueIdx

/-- The scalar shape has one index. -/
instance : Subsingleton Cert.Pre_finite_inputs.S_.Idx := ⟨fun a b => funext fun d => d.elim0⟩

/-- The word `0x7F800000` denotes +∞. -/
theorem inf_word : Ideal.ofBits .f32 0x7F800000#32 = (⊤ : EReal) := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- Under the precondition both inputs are arrays of real numbers. -/
theorem real_of_pre [Cert.Pre_finite_inputs.Facts] (x0 x1 : FVec Ideal Cert.SoftmaxLoss.SIn .f32)
    (h : Cert.Pre_finite_inputs.fn (F := Ideal) x0 x1 = fun _ => 1#1) :
    ∃ P T : Cert.SoftmaxLoss.SIn.Idx → ℝ, x0 = (fun i => ((P i : ℝ) : EReal)) ∧ x1 = (fun i => ((T i : ℝ) : EReal)) := by
  have h0 := congrFun h ix0
  dsimp only [Cert.Pre_finite_inputs.fn] at h0
  obtain ⟨ha, hb⟩ := IntOp.andi_eq_one.1 h0
  have ea : ∀ i, ∃ r : ℝ, x0 i = (r : EReal) := fun i =>
    real_of_abs_lt (x0 i) (Host.reduce_andi_all _ _ _ _ _ ha i)
  have eb : ∀ i, ∃ r : ℝ, x1 i = (r : EReal) := fun i =>
    real_of_abs_lt (x1 i) (Host.reduce_andi_all _ _ _ _ _ hb i)
  choose P hP using ea
  choose T hT using eb
  exact ⟨P, T, funext hP, funext hT⟩

end Cert.FiniteInputs

end
-- ==== Proof.ReferenceLoss.lean ====
/-
  The reference program computes the loss.

  The reference slices the first 24 columns of both arrays, views the first as 6 groups of 4, takes the
  softmax of each group in the stabilised form (subtract the group's maximum `m`, exponentiate, divide by the
  sum), scales by 3, subtracts the target, squares, and takes the mean over the 24 columns and then over the
  2097152 rows. On real inputs every intermediate value is a real number, the maximum `m` cancels
  (`exp (x - m) / ∑ exp (x_k - m) = exp x / ∑ exp x_k`), and the two means compose to one division by
  `24 · 2097152 = 50331648`.
-/
import proofs.«116759_j5935644803606_2_alg».proof.Proof.Gen.ReferenceIdeal.Read
import proofs.«116759_j5935644803606_2_alg».proof.Proof.SoftmaxLoss

noncomputable section

open scoped BigOperators

namespace Cert.ReferenceLoss

open Cert.ReferenceIdeal Cert.ReferenceIdeal.Gen Cert.ReferenceIdeal.Read Idealize.ShloMosaic Idealize.ShloMosaic.ValueIdx
open Cert.SoftmaxLoss (SIn col grp err sqErr total loss)

/-! ## Extended reals: sums, maxima and the program's literals -/

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The maximum, from `-∞`, of a nonempty finite family of reals is a real. -/
theorem fold_max_real {ι : Type*} (s : Finset ι) (hs : s.Nonempty) (f : ι → ℝ) :
    ∃ r : ℝ, s.fold max (⊥ : EReal) (fun k => ((f k : ℝ) : EReal)) = (r : EReal) := by
  obtain ⟨a, ha⟩ := hs
  have h1 : s.fold max (⊥ : EReal) (fun k => ((f k : ℝ) : EReal)) ≠ ⊤ :=
    ne_of_lt ((Finset.fold_max_lt ⊤).2 ⟨bot_lt_top, fun x _ => EReal.coe_lt_top _⟩)
  have h2 : s.fold max (⊥ : EReal) (fun k => ((f k : ℝ) : EReal)) ≠ ⊥ :=
    ne_of_gt ((Finset.lt_fold_max ⊥).2 (Or.inr ⟨a, ha, EReal.bot_lt_coe _⟩))
  exact ⟨_, (EReal.coe_toReal h1 h2).symm⟩

/-- The word `0x40400000` is 3. -/
theorem word_three : Ideal.ofBits .f32 0x40400000#32 = ((3 : ℝ) : EReal) := by
  simp [Ideal.ofBits, Ideal.ieee]
  rw [← EReal.coe_mul]
  norm_num

/-- The word `0x41C00000` is 24. -/
theorem word_cols : Ideal.ofBits .f32 0x41C00000#32 = ((24 : ℝ) : EReal) := by
  simp [Ideal.ofBits, Ideal.ieee]
  rw [← EReal.coe_mul]
  norm_num

/-- The word `0x4A000000` is 2097152. -/
theorem word_rows : Ideal.ofBits .f32 0x4A000000#32 = ((2097152 : ℝ) : EReal) := by
  simp [Ideal.ofBits, Ideal.ieee]
  rw [← EReal.coe_mul]
  norm_num

/-- The word `0xFF800000` is `-∞`. -/
theorem word_neg_inf : Ideal.ofBits .f32 0xFF800000#32 = (⊥ : EReal) := by
  simp [Ideal.ofBits, Ideal.ieee]

/-! ## The stages at an index -/

section Stages

variable {X Y : (⟨S2097152x25, .f32⟩ : BufTy).Contents (Elt Ideal)} {P T : SIn.Idx → ℝ}

/-- Column `i` of group `g`, as a column of the 25-wide array. -/
def gcol (g : Fin 6) (i : Fin 4) : Fin 25 := ⟨4 * g.val + i.val, by omega⟩

/-- The sliced and regrouped first array at row `b`, group `g`, position `i` is the array at column `4g + i`. -/
theorem grouped_apply (X : (⟨S2097152x25, .f32⟩ : BufTy).Contents (Elt Ideal)) (b : Fin 2097152) (g : Fin 6) (i : Fin 4) :
    val_main_v1 (F := Ideal) X (ix3 b g i) = X (ix2 b (gcol g i)) := by
  rw [val_main_v1_apply, val_main_v0_apply]
  refine congrArg X (funext fun a => ?_)
  have := b.isLt; have := g.isLt; have := i.isLt
  match a with
  | ⟨0, _⟩ => exact Fin.ext (by show ((b.val * 6 + g.val) * 4 + i.val) / 24 = b.val; omega)
  | ⟨1, _⟩ => exact Fin.ext (by show ((b.val * 6 + g.val) * 4 + i.val) % 24 = 4 * g.val + i.val; omega)

/-- The group maximum the softmax subtracts is a real number. -/
theorem max_real (hX : ∀ i, X i = ((P i : ℝ) : EReal)) (j : S2097152x6.Idx) :
    ∃ r : ℝ, val_main_v4 (F := Ideal) X j = (r : EReal) := by
  have hred : S2097152x6x4.Reduces [2] S2097152x6 := by decide
  have hf : (val_main_v1 (F := Ideal) X ∘ hred.lift j)
      = fun k => ((P (idx_main_v0 (idx_main_v1 (hred.lift j k))) : ℝ) : EReal) := by
    funext k
    simp only [Function.comp, val_main_v1_apply, val_main_v0_apply, hX]
  obtain ⟨r, hr⟩ := fold_max_real Finset.univ ⟨⟨0, by decide⟩, Finset.mem_univ _⟩
    (fun k => P (idx_main_v0 (idx_main_v1 (hred.lift j k))))
  refine ⟨r, ?_⟩
  rw [val_main_v4_apply, val_main_v3_apply, val_main_cst_0_apply]
  unfold val_main_v2
  rw [Host.reduce_eq_fold_single FloatOps.maximumf _ _ reducesTo_S2097152x6x4_S2097152x6_d2 hred h_S_ j,
    val_main_cst_apply, hf]
  show max (Ideal.ofBits .f32 0xFF800000#32) (Finset.univ.fold max (Ideal.ofBits .f32 0xFF800000#32) _) = _
  rw [word_neg_inf, hr, max_eq_right bot_le]

/-- The exponential of an entry minus its group's maximum `M`. -/
theorem exp_apply (hX : ∀ i, X i = ((P i : ℝ) : EReal)) (b : Fin 2097152) (g : Fin 6) (k : Fin 4) (M : ℝ)
    (hM : val_main_v4 (F := Ideal) X (ix2 b g) = (M : EReal)) :
    val_main_v8 (F := Ideal) X (ix3 b g k) = ((Real.exp (P (ix2 b (gcol g k)) - M) : ℝ) : EReal) := by
  have e : idx_main_v5 (idx_main_v6 (ix3 b g k)) = ix2 b g :=
    funext fun a => by match a with | ⟨0, _⟩ => rfl | ⟨1, _⟩ => rfl
  rw [val_main_v8_apply, val_main_v7_apply, grouped_apply, val_main_v6_apply, val_main_v5_apply, e, hM, hX]
  show Ideal.exp (((P _ : ℝ) : EReal) - (M : EReal)) = _
  rw [← EReal.coe_sub, Ideal.exp_coe]

/-- The sum of a group's exponentials. -/
theorem sum_apply (hX : ∀ i, X i = ((P i : ℝ) : EReal)) (b : Fin 2097152) (g : Fin 6) (M : ℝ)
    (hM : val_main_v4 (F := Ideal) X (ix2 b g) = (M : EReal)) :
    val_main_v9 (F := Ideal) X (ix2 b g) = ((∑ k : Fin 4, Real.exp (P (ix2 b (gcol g k)) - M) : ℝ) : EReal) := by
  have e : ∀ k : Fin 4, idx_main_v9 (ix2 b g) k = ix3 b g k := fun k =>
    funext fun a => by match a with | ⟨0, _⟩ => rfl | ⟨1, _⟩ => rfl | ⟨2, _⟩ => rfl
  rw [val_main_v9_apply, val_main_cst_1_apply]
  simp only [e, fun k => exp_apply hX b g k M hM]
  show Ideal.ofBits .f32 0x00000000#32 + _ = _
  rw [Ideal.ofBits_zero_f32, zero_add, coe_sum]

/-- Three times the softmax of a group: the maximum cancels. -/
theorem softmax_apply (hX : ∀ i, X i = ((P i : ℝ) : EReal)) (b : Fin 2097152) (g : Fin 6) (i : Fin 4) :
    val_main_v14 (F := Ideal) X (ix3 b g i)
      = ((3 * Real.exp (P (ix2 b (gcol g i))) / ∑ k : Fin 4, Real.exp (P (ix2 b (gcol g k))) : ℝ) : EReal) := by
  obtain ⟨M, hM⟩ := max_real hX (ix2 b g)
  have e : idx_main_v10 (idx_main_v11 (ix3 b g i)) = ix2 b g :=
    funext fun a => by match a with | ⟨0, _⟩ => rfl | ⟨1, _⟩ => rfl
  have hpos : 0 < ∑ k : Fin 4, Real.exp (P (ix2 b (gcol g k)) - M) :=
    Finset.sum_pos (fun _ _ => Real.exp_pos _) Finset.univ_nonempty
  have hS : 0 < ∑ k : Fin 4, Real.exp (P (ix2 b (gcol g k))) :=
    Finset.sum_pos (fun _ _ => Real.exp_pos _) Finset.univ_nonempty
  rw [val_main_v14_apply, val_main_v13_apply, val_main_cst_2_apply, val_main_v12_apply, val_main_v11_apply,
    val_main_v10_apply, e, sum_apply hX b g M hM, exp_apply hX b g i M hM]
  show Ideal.ofBits .f32 0x40400000#32 * Ideal.div _ _ = _
  rw [word_three, Ideal.div_coe hpos.ne', ← EReal.coe_mul, ← EReal.coe_mul]
  refine congrArg Real.toEReal ?_
  simp only [Real.exp_sub]
  rw [← Finset.sum_div]
  have hM0 : Real.exp M ≠ 0 := (Real.exp_pos M).ne'
  have hS0 := hS.ne'
  field_simp

/-- The squared error at row `b`, column `j`. -/
theorem sqErr_apply (hX : ∀ i, X i = ((P i : ℝ) : EReal)) (hY : ∀ i, Y i = ((T i : ℝ) : EReal))
    (b : Fin 2097152) (j : Fin 24) :
    val_main_v18 (F := Ideal) X Y (ix2 b j) = ((sqErr P T b j : ℝ) : EReal) := by
  have e15 : idx_main_v15 (ix2 b j) = ix3 b (⟨j.val / 4, by omega⟩ : Fin 6) (⟨j.val % 4, by omega⟩ : Fin 4) :=
    funext fun a => by
      have := b.isLt; have := j.isLt
      match a with
      | ⟨0, _⟩ => exact Fin.ext (by show (b.val * 24 + j.val) / 24 = b.val; omega)
      | ⟨1, _⟩ => exact Fin.ext (by show (b.val * 24 + j.val) / 4 % 6 = j.val / 4; omega)
      | ⟨2, _⟩ => exact Fin.ext (by show (b.val * 24 + j.val) % 4 = j.val % 4; omega)
  have e16 : idx_main_v16 (ix2 b j) = ix2 b (col j) :=
    funext fun a => by match a with | ⟨0, _⟩ => rfl | ⟨1, _⟩ => rfl
  have ec : gcol (⟨j.val / 4, by omega⟩ : Fin 6) (⟨j.val % 4, by omega⟩ : Fin 4) = col j :=
    Fin.ext (by show 4 * (j.val / 4) + j.val % 4 = j.val; omega)
  have eg : ∀ k : Fin 4, gcol (⟨j.val / 4, by omega⟩ : Fin 6) k = grp j k := fun k => rfl
  rw [val_main_v18_apply, val_main_v17_apply, val_main_v15_apply, val_main_v16_apply, e15, e16, softmax_apply hX, hY, ec]
  simp only [eg]
  show (((_ : ℝ) : EReal) - ((_ : ℝ) : EReal)) * (((_ : ℝ) : EReal) - ((_ : ℝ) : EReal)) = _
  rw [← EReal.coe_sub, ← EReal.coe_mul]
  rfl

/-- The mean of a row's squared errors over its 24 columns. -/
theorem row_apply (hX : ∀ i, X i = ((P i : ℝ) : EReal)) (hY : ∀ i, Y i = ((T i : ℝ) : EReal)) (b : Fin 2097152) :
    val_main_v21 (F := Ideal) X Y (ix1 b) = (((∑ j : Fin 24, sqErr P T b j) * (1 / 24) : ℝ) : EReal) := by
  have e : ∀ k : Fin 24, idx_main_v19 (ix1 b) k = ix2 b k := fun k =>
    funext fun a => by match a with | ⟨0, _⟩ => rfl | ⟨1, _⟩ => rfl
  rw [val_main_v21_apply, val_main_v20_apply, val_main_cst_4_apply, val_main_v19_apply, val_main_cst_3_apply]
  simp only [e, fun k => sqErr_apply hX hY b k]
  show Ideal.div (Ideal.ofBits .f32 0x00000000#32 + _) (Ideal.ofBits .f32 0x41C00000#32) = _
  rw [Ideal.ofBits_zero_f32, zero_add, word_cols, Ideal.div_coe (by norm_num), ← coe_sum, ← EReal.coe_mul]

end Stages

/-! ## The two means -/

/-- A rank-1 index set of 2097152 entries is its coordinate range. -/
def rowEquiv : S2097152.Idx ≃ Fin 2097152 where
  toFun j := j 0
  invFun b := ix1 b
  left_inv j := (eq_ix1 j).symm
  right_inv _ := rfl

/-- On real inputs the reference's result is the loss. -/
theorem reference_eq (P T : SIn.Idx → ℝ) :
    val_main_v23 (F := Ideal) (fun i => ((P i : ℝ) : EReal)) (fun i => ((T i : ℝ) : EReal))
      = fun _ => ((loss P T : ℝ) : EReal) := by
  funext i
  have e : ∀ j : S2097152.Idx,
      val_main_v21 (F := Ideal) (fun i => ((P i : ℝ) : EReal)) (fun i => ((T i : ℝ) : EReal)) j
        = (((∑ k : Fin 24, sqErr P T (rowEquiv j) k) * (1 / 24) : ℝ) : EReal) := fun j =>
    (congrArg (val_main_v21 (F := Ideal) _ _) (eq_ix1 j)).trans (row_apply (fun _ => rfl) (fun _ => rfl) (j 0))
  rw [val_main_v23_apply, val_main_cst_6_apply, val_main_v22_apply, val_main_cst_5_apply]
  simp only [e]
  show Ideal.div (Ideal.ofBits .f32 0x00000000#32 + _) (Ideal.ofBits .f32 0x4A000000#32) = _
  rw [Ideal.ofBits_zero_f32, zero_add, word_rows, Ideal.div_coe (by norm_num), ← coe_sum, ← EReal.coe_mul]
  refine congrArg Real.toEReal ?_
  rw [Equiv.sum_comp rowEquiv (fun b => (∑ k : Fin 24, sqErr P T b k) * (1 / 24)), ← Finset.sum_mul]
  unfold loss total
  ring

end Cert.ReferenceLoss

end
-- ==== Proof.GridSum.lean ====
/-
  The grid's order of summation, over the reals.

  The kernel walks the 2097152 rows in 256 blocks of 8192 rows. Blocks 0..127 form the first half, blocks 128..255 the
  second. Within a half a per-column running sum is reset at the half's first block and grows by one block's column
  sums per block; after the half's last block the 24 running sums are added into the half's total, and the two totals
  are added. This module states those partial sums and shows that the two totals add up to the sum over every row and
  column.
-/
import proofs.«116759_j5935644803606_2_alg».proof.Proof.SoftmaxLoss

noncomputable section

open scoped BigOperators

namespace Cert.SoftmaxLoss

open Idealize.ShloMosaic Idealize.ShloMosaic.ValueIdx

variable (P T : SIn.Idx → ℝ)

/-- Row `r` of block `t`, as a row of the whole array. -/
def rowOf (t : Fin 256) (r : Fin 8192) : Fin 2097152 := ⟨t.val * 8192 + r.val, by omega⟩

/-- Column `j`'s squared errors summed over the rows of block `t`. -/
def colSum (t : Fin 256) (j : Fin 24) : ℝ := ∑ r : Fin 8192, sqErr P T (rowOf t r) j

/-- The blocks of `n`'s half up to and including `n`. -/
def upTo (n : Fin 256) : Finset (Fin 256) :=
  Finset.univ.filter fun k : Fin 256 => k.val / 128 = n.val / 128 ∧ k.val ≤ n.val

/-- Column `j`'s running sum after block `n`: the column sums of the blocks of `n`'s half up to `n`. -/
def runSum (n : Fin 256) (j : Fin 24) : ℝ := ∑ k ∈ upTo n, colSum P T k j

/-- At a half's first block the running sum is that block's column sum. -/
theorem runSum_first (n : Fin 256) (h : n.val % 128 = 0) (j : Fin 24) : runSum P T n j = colSum P T n j := by
  have e : upTo n = {n} := by
    ext k
    simp only [upTo, Finset.mem_filter, Finset.mem_univ, true_and, Finset.mem_singleton, Fin.ext_iff]
    omega
  rw [runSum, e, Finset.sum_singleton]

/-- At any other block it grows by the block's column sum. -/
theorem runSum_next (n n' : Fin 256) (hn : n'.val = n.val + 1) (h : ¬n'.val % 128 = 0) (j : Fin 24) :
    runSum P T n' j = runSum P T n j + colSum P T n' j := by
  have hnot : n' ∉ upTo n := by
    simp only [upTo, Finset.mem_filter, Finset.mem_univ, true_and]
    omega
  have e : upTo n' = insert n' (upTo n) := by
    ext k
    simp only [upTo, Finset.mem_filter, Finset.mem_univ, true_and, Finset.mem_insert, Fin.ext_iff]
    omega
  rw [runSum, e, Finset.sum_insert hnot, add_comm]
  rfl

/-- The last block of half `c`. -/
def lastOf (c : Fin 2) : Fin 256 := ⟨c.val * 128 + 127, by omega⟩

/-- Half `c`'s total: the 24 running sums after the half's last block, added. -/
def halfTotal (c : Fin 2) : ℝ := ∑ j : Fin 24, runSum P T (lastOf c) j

/-- Summing over blocks and rows within a block is summing over all rows. -/
theorem sum_rows (g : Fin 2097152 → ℝ) : ∑ t : Fin 256, ∑ r : Fin 8192, g (rowOf t r) = ∑ b : Fin 2097152, g b := by
  rw [← Fintype.sum_prod_type']
  refine Fintype.sum_equiv (finProdFinEquiv.trans (finCongr (by norm_num))) _ _ (fun p => ?_)
  congr 1
  apply Fin.ext
  simp only [rowOf, Equiv.trans_apply, finProdFinEquiv_apply_val, finCongr_apply, Fin.coe_cast]
  omega

/-- The two halves' totals add up to the sum of the squared errors over every row and column. -/
theorem halves_add : halfTotal P T 0 + halfTotal P T 1 = total P T := by
  have e0 : upTo (lastOf 0) = Finset.univ.filter fun k : Fin 256 => k.val < 128 := by
    ext k
    rw [upTo, Finset.mem_filter, Finset.mem_filter]
    have h127 : (lastOf 0).val = 127 := rfl
    rw [h127]
    have := k.isLt
    simp only [Finset.mem_univ, true_and]
    omega
  have e1 : upTo (lastOf 1) = Finset.univ.filter fun k : Fin 256 => ¬k.val < 128 := by
    ext k
    rw [upTo, Finset.mem_filter, Finset.mem_filter]
    have h255 : (lastOf 1).val = 255 := rfl
    rw [h255]
    have := k.isLt
    simp only [Finset.mem_univ, true_and]
    omega
  have key : ∀ j : Fin 24, runSum P T (lastOf 0) j + runSum P T (lastOf 1) j = ∑ k : Fin 256, colSum P T k j :=
    fun j => by
      unfold runSum
      rw [e0, e1]
      exact Finset.sum_filter_add_sum_filter_not _ _ _
  unfold halfTotal
  rw [← Finset.sum_add_distrib, Finset.sum_congr rfl (fun j _ => key j), Finset.sum_comm]
  unfold colSum
  rw [Finset.sum_congr rfl (fun t _ => Finset.sum_comm)]
  exact sum_rows (fun b => ∑ j : Fin 24, sqErr P T b j)

end Cert.SoftmaxLoss

end
-- ==== Proof.KernelResult.lean ====
/-
  From the two write-back points to the kernel's result.

  The kernel's output array has one row of 256 lanes, written back in two blocks of 128 lanes: after the last
  grid point of each half of the grid, the block holds that half's total in lane 0 and zeros elsewhere. The
  host then sums the 256 lanes and divides by 50331648. So the result is the sum of the two halves' totals,
  which is the sum of the squared errors over every row and column, divided by the number of entries: the loss.
-/
import proofs.«116759_j5935644803606_2_alg».proof.Proof.Gen.KernelIdeal.Frame
import proofs.«116759_j5935644803606_2_alg».proof.Proof.GridSum
import Idealize.ShloMosaic.Lib.Pipeline.Value
import Idealize.ShloMosaic.Lib.StableHlo.Run
import Idealize.ShloMosaic.Lib.Tactic
import Idealize.ShloMosaic.PureOps.Ideal.Laws
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen
open Cert.SoftmaxLoss (halfTotal halves_add total loss)

variable (m : (ℓ : Loc nD τ sig) → Buf (Elt Ideal) ℓ) (ρ : Dev nD → PrngReg) (P T : Cert.SoftmaxLoss.SIn.Idx → ℝ)

/-- The half a grid point belongs to. -/
def halfOf (t : Fin cfg0.N) : Fin 2 := ⟨t.val / 128, by have := t.isLt; have : cfg0.N = 256 := N_0; omega⟩

/-- The output block a half's last point stores: the half's total in lane 0, zeros in the other lanes. -/
def outBlock (h : Fin 2) : Vec Ideal S1x128 .f32 :=
  fun y => if (y 1).val = 0 then ((halfTotal P T h : ℝ) : EReal) else ((0 : ℝ) : EReal)

/-- The output array after the run: the first half's total in lane 0, the second half's in lane 128, zeros elsewhere. -/
def finalArr : S1x256.Idx → EReal :=
  fun i => if (i 1).val = 0 then ((halfTotal P T 0 : ℝ) : EReal)
    else if (i 1).val = 128 then ((halfTotal P T 1 : ℝ) : EReal) else ((0 : ℝ) : EReal)

/-- The output window's block index at a grid point: row block 0, lane block the point's half. -/
theorem idx_facts : ∀ t : Fin cfg0.N, win0_2.index t (0 : Fin 2) = 0 ∧ win0_2.index t (1 : Fin 2) = t.val / 128 :=
  (by decide +kernel : ∀ t : Fin grid0.N, win0_2.index t (0 : Fin 2) = 0 ∧ win0_2.index t (1 : Fin 2) = t.val / 128)

/-- The 256 lanes of the final array add up to the two halves' totals. -/
theorem lanes_sum : ∑ q : Fin 256, finalArr P T (ix2 (0 : Fin 1) q)
    = ((halfTotal P T 0 + halfTotal P T 1 : ℝ) : EReal) := by
  have hne : (⟨0, by omega⟩ : Fin 256) ≠ ⟨128, by omega⟩ := fun h => absurd (congrArg Fin.val h) (by decide)
  refine (Finset.sum_eq_add (⟨0, by omega⟩ : Fin 256) ⟨128, by omega⟩ hne (fun q _ hq => ?_)
    (fun h => absurd (Finset.mem_univ _) h) (fun h => absurd (Finset.mem_univ _) h)).trans ?_
  · show (if q.val = 0 then ((halfTotal P T 0 : ℝ) : EReal)
      else if q.val = 128 then ((halfTotal P T 1 : ℝ) : EReal) else ((0 : ℝ) : EReal)) = 0
    rw [if_neg (fun h => hq.1 (Fin.ext h)), if_neg (fun h => hq.2 (Fin.ext h))]
    exact EReal.coe_zero
  · show (if (0 : ℕ) = 0 then ((halfTotal P T 0 : ℝ) : EReal)
        else if (0 : ℕ) = 128 then ((halfTotal P T 1 : ℝ) : EReal) else ((0 : ℝ) : EReal))
      + (if (128 : ℕ) = 0 then ((halfTotal P T 0 : ℝ) : EReal)
        else if (128 : ℕ) = 128 then ((halfTotal P T 1 : ℝ) : EReal) else ((0 : ℝ) : EReal)) = _
    rw [if_pos rfl, if_neg (by decide), if_pos rfl, EReal.coe_add]

/-- The word `0x4C400000` is 50331648, the number of entries. -/
theorem word_entries : Ideal.ofBits .f32 0x4C400000#32 = ((50331648 : ℝ) : EReal) := by
  simp [Ideal.ofBits, Ideal.ieee]
  rw [← EReal.coe_pow, ← EReal.coe_mul]
  norm_num

section
variable (hpts : ∀ (c : Dev nD) (t : Fin cfg0.N), t.val % 128 = 127 → (outsAt0 m c t.val t.isLt).1 = outBlock P T (halfOf t))
include hpts

/-- What a write-back point writes back is its block of the final array. -/
theorem flushed_eq (c : Dev nD) (t : Fin cfg0.N) (hf : (cfg0.win 2).flush t = true) :
    (dats m 0 c).flushed 2 t = ((cfg0.win 2).blk t).view.read (Elt Ideal) (finalArr P T) := by
  have h127 : t.val % 128 = 127 := (flush0_2 t).mp hf
  have hN : t.val < 256 := lt_of_lt_of_eq t.isLt (show cfg0.N = 256 from N_0)
  obtain ⟨-, hidx⟩ := idx_facts t
  show (cfg0.win 2).cut (grid0.coords t) ((dats m 0 c).after 2 t) = _
  rw [after0_2, hpts c t h127]
  funext y
  show (if (y (1 : Fin 2)).val = 0 then ((halfTotal P T (halfOf t) : ℝ) : EReal) else ((0 : ℝ) : EReal))
     = (if ((((cfg0.win 2).blk t).view.emb y) (1 : Fin 2)).val = 0 then ((halfTotal P T 0 : ℝ) : EReal)
        else if ((((cfg0.win 2).blk t).view.emb y) (1 : Fin 2)).val = 128 then ((halfTotal P T 1 : ℝ) : EReal) else ((0 : ℝ) : EReal))
  have he : ((((cfg0.win 2).blk t).view.emb y) (1 : Fin 2)).val = win0_2.index t (1 : Fin 2) * 128 + 1 * (y (1 : Fin 2)).val := rfl
  rw [he, hidx]
  have hy : (y (1 : Fin 2)).val < 128 := (y (1 : Fin 2)).isLt
  have hq : t.val / 128 = 0 ∨ t.val / 128 = 1 := by omega
  rcases hq with hq | hq
  · have hh : halfOf t = 0 := Fin.ext hq
    rw [hq, hh]
    by_cases h0 : (y (1 : Fin 2)).val = 0
    · rw [if_pos h0, if_pos (by omega)]
    · rw [if_neg h0, if_neg (by omega), if_neg (by omega)]
  · have hh : halfOf t = 1 := Fin.ext hq
    rw [hq, hh]
    by_cases h0 : (y (1 : Fin 2)).val = 0
    · rw [if_pos h0, if_neg (by omega), if_pos (by omega)]
    · rw [if_neg h0, if_neg (by omega), if_neg (by omega)]

/-- Every lane of the output array lies in the block its half's last point writes back, so the array ends as stated. -/
theorem final (c : Dev nD) : (dats m 0 c).arrAt 2 cfg0.N = finalArr P T :=
  (dats m 0 c).arrAt_eq_of_cover 2 (finalArr P T) (flushed_eq m P T hpts c) fun i => by
    have hi0 : (i (0 : Fin 2)).val < 1 := (i (0 : Fin 2)).isLt
    have hi1 : (i (1 : Fin 2)).val < 256 := (i (1 : Fin 2)).isLt
    have hN : cfg0.N = 256 := N_0
    let t : Fin cfg0.N := ⟨128 * ((i (1 : Fin 2)).val / 128) + 127, by omega⟩
    obtain ⟨e0, e1⟩ := idx_facts t
    have ht : t.val = 128 * ((i (1 : Fin 2)).val / 128) + 127 := rfl
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t (0 : Fin 2) * 1 ≤ (i (0 : Fin 2)).val ∧ (i (0 : Fin 2)).val < win0_2.index t (0 : Fin 2) * 1 + 1
      omega
    | ⟨1, _⟩ =>
      show win0_2.index t (1 : Fin 2) * 128 ≤ (i (1 : Fin 2)).val ∧ (i (1 : Fin 2)).val < win0_2.index t (1 : Fin 2) * 128 + 128
      omega

/-- The host operations after the kernel, applied to the final array, give the loss. -/
theorem tail_eq (c : Dev nD) :
    Pipeline.afterTail₀ cfgs (dats m) 0 (V0 m) [hostOps1] c main_v2 = (fun _ => ((loss P T : ℝ) : EReal)) := by
  have hv0 : Pipeline.withArrays (cfgs 0).spec c (V0 m c) (fun w => (dats m 0 c).arrAt w (cfgs 0).N) (Proc.devRef .tc main_v0)
      = finalArr P T :=
    (Pipeline.withArrays_arr spec0 launch0.win.arr_inj c _ _ 2).trans (final m P T hpts c)
  unfold Pipeline.afterTail₀
  show StableHlo.after hostOps1 _ (Proc.devRef .tc main_v2) = _
  after_results
  rw [hv0]
  funext i
  have hsum : Host.reduceAdd (F := Ideal) (finalArr P T) (constant S_ .f32 0x00000000#32) reducesTo_S1x256_S_d0_1 h_S_ i
      = ((halfTotal P T 0 + halfTotal P T 1 : ℝ) : EReal) := by
    simp only [Host.reduceAdd, Ideal.hostReduceAdd_def]
    rw [Ideal.hostReduceAdd_total reducesTo_S1x256_S_d0_1 (fun b => b.elim0) (finalArr P T) _ i]
    show Ideal.ofBits .f32 0x00000000#32 + _ = _
    rw [Ideal.ofBits_zero_f32, zero_add, sum_idx2, Fin.sum_univ_one, lanes_sum]
  show Ideal.div (Host.reduceAdd (F := Ideal) (finalArr P T) (constant S_ .f32 0x00000000#32) reducesTo_S1x256_S_d0_1 h_S_ i)
    (Ideal.ofBits .f32 0x4C400000#32) = _
  rw [hsum, word_entries, Ideal.div_coe (by norm_num), ← EReal.coe_mul, halves_add]
  refine congrArg Real.toEReal ?_
  unfold loss
  ring

/-- The run: the result buffer ends at the loss, the two inputs unchanged. -/
theorem run_of_points :
    θ_run defs (onTc (τ := τ) (main (F := Ideal))) ⟨m, fun _ => 0, ρ⟩ (fun r => ∀ c : Dev nD,
      r.2.mem ((c.tc : Thread nD τ).loc main_v2) = (fun _ => ((loss P T : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 rfl (fun w => by fin_cases w <;> decide))).trans (tail_eq m P T hpts c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end

end Cert.KernelIdeal.Result

end
-- ==== Proof.CaseValues.lean ====
/-
  What each control case of the body leaves behind, lane by lane.

  The body keeps a running sum of 128 lanes in a buffer it carries from one grid point to the next. At a half's
  first point it first fills the buffer with zeros; at every point it then reads the first 24 lanes, adds the
  point's 24 column sums, and stores the 24 lanes back, leaving lanes 24 to 127 as they were. At a half's last point
  it finally reads the whole buffer back and stores the output block computed from it.
-/
import proofs.«116759_j5935644803606_2_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

noncomputable section

namespace Cert.KernelIdeal.CaseValue

open Cert.KernelIdeal Cert.KernelIdeal.Gen Idealize.ShloMosaic Idealize.ShloMosaic.TcCoe Idealize.SL.Sem
open Idealize.ShloMosaic.ValueIdx

variable {F : FTy → Type} [FloatOps F]

theorem hz : (![0, 0] : Fin 2 → Nat) = fun _ => 0 := funext fun a => by fin_cases a <;> rfl

/-- The first 24 columns of an input block. -/
abbrev R24 : Rect S8192x25 := Rect.unit (s := S8192x25) ![0, 0] S8192x24.size inb_S8192x25_S8192x24_0_0
/-- The first 24 lanes of the running sum. -/
abbrev RAcc : Rect S1x128 := Rect.unit (s := S1x128) ![0, 0] ![1, 24] inb_S1x128_S1x24_0_0

/-- Lane `j < 24` among the 128 lanes. -/
def laneOf (j : Fin 24) : Fin 128 := ⟨j.val, by omega⟩

/-- The new first 24 lanes: from the two input blocks and the old first 24 lanes. -/
def step (x0 x1 : Vec F S8192x25 .f32) (a : Vec F S1x24 .f32) : FVec F S1x24 .f32 :=
  k0_pay1 (View.ld x1 R24) (k0_pay4 (View.ld x0 R24)) k0_pay5 (iota .tc S24x24 32 [1] iota_S24x24_d1_w32) 4#32 k0_pay6 k0_pay7 a

section Cases

variable (c : Dev nD) (i : grid0.Coords) (arg2 : Memref sig .tc .vmem S8192x25 .f32) (harg2 : arg2.IsWhole)
  (arg3 : Memref sig .tc .vmem S8192x25 .f32) (harg3 : arg3.IsWhole) (arg4 : Memref sig .tc .vmem S1x128 .f32) (harg4 : arg4.IsWhole)
  (arg5 : Memref sig .tc .vmem S1x128 .f32) (harg5 : arg5.IsWhole) (x0 x1 : Vec F S8192x25 .f32)

/-- A point in the middle of a half: lane `j < 24` of the running sum ends at the step of what the lanes held. -/
theorem sout_B_lo (hc0 : ¬cond0_0 i) (hc1 : ¬cond0_1 i) (xs0 : Vec F S1x128 .f32) (j : Fin 24) :
    sout0_B_0 c i arg2 harg2 arg3 harg3 arg4 harg4 arg5 harg5 hc0 hc1 x0 x1 xs0 (ix2 (0 : Fin 1) (laneOf j))
      = step x0 x1 (View.ld xs0 RAcc) (ix2 (0 : Fin 1) j) := by
  unfold sout0_B_0 kernelRun0_B
  dsimp only
  sl_unfold_words
  refine (View.read_writes_cons_unit_of_mem arg5.view (harg5.unread xs0) inb_S1x128_S1x24_0_0 _ [] (ix2 (0 : Fin 1) (laneOf j))
    (ix2 (0 : Fin 1) j) rfl (fun a => match a with
      | ⟨0, _⟩ => rfl
      | ⟨1, _⟩ => (Nat.zero_add _).symm)).trans ?_
  simp only [View.readAt_eq_ld, harg2.read_unread, harg3.read_unread, harg5.read_unread]
  rfl

/-- … and the lanes from 24 on keep what they held. -/
theorem sout_B_hi (hc0 : ¬cond0_0 i) (hc1 : ¬cond0_1 i) (xs0 : Vec F S1x128 .f32) (l : Fin 128) (hl : 24 ≤ l.val) :
    sout0_B_0 c i arg2 harg2 arg3 harg3 arg4 harg4 arg5 harg5 hc0 hc1 x0 x1 xs0 (ix2 (0 : Fin 1) l) = xs0 (ix2 (0 : Fin 1) l) := by
  unfold sout0_B_0 kernelRun0_B
  dsimp only
  refine (View.read_writes_cons_unit_of_not_mem arg5.view (harg5.unread xs0) inb_S1x128_S1x24_0_0 _ [] (ix2 (0 : Fin 1) l) rfl 1
    (Or.inr (by show 0 + 24 ≤ l.val; omega))).trans ?_
  rw [View.writes_nil, harg5.read_unread]

/-- A half's last point leaves the running sum as a middle point does: lane `j < 24`, -/
theorem sout_C_lo (hc0 : ¬cond0_0 i) (hc1 : cond0_1 i) (xs0 : Vec F S1x128 .f32) (j : Fin 24) :
    sout0_C_0 c i arg2 harg2 arg3 harg3 arg4 harg4 arg5 harg5 hc0 hc1 x0 x1 xs0 (ix2 (0 : Fin 1) (laneOf j))
      = step x0 x1 (View.ld xs0 RAcc) (ix2 (0 : Fin 1) j) := by
  unfold sout0_C_0 kernelRun0_C
  dsimp only
  sl_unfold_words
  refine (View.read_writes_cons_unit_of_mem arg5.view (harg5.unread xs0) inb_S1x128_S1x24_0_0 _ [] (ix2 (0 : Fin 1) (laneOf j))
    (ix2 (0 : Fin 1) j) rfl (fun a => match a with
      | ⟨0, _⟩ => rfl
      | ⟨1, _⟩ => (Nat.zero_add _).symm)).trans ?_
  simp only [View.readAt_eq_ld, harg2.read_unread, harg3.read_unread, harg5.read_unread]
  rfl

/-- and the lanes from 24 on. -/
theorem sout_C_hi (hc0 : ¬cond0_0 i) (hc1 : cond0_1 i) (xs0 : Vec F S1x128 .f32) (l : Fin 128) (hl : 24 ≤ l.val) :
    sout0_C_0 c i arg2 harg2 arg3 harg3 arg4 harg4 arg5 harg5 hc0 hc1 x0 x1 xs0 (ix2 (0 : Fin 1) l) = xs0 (ix2 (0 : Fin 1) l) := by
  unfold sout0_C_0 kernelRun0_C
  dsimp only
  refine (View.read_writes_cons_unit_of_not_mem arg5.view (harg5.unread xs0) inb_S1x128_S1x24_0_0 _ [] (ix2 (0 : Fin 1) l) rfl 1
    (Or.inr (by show 0 + 24 ≤ l.val; omega))).trans ?_
  rw [View.writes_nil, harg5.read_unread]

/-- The output block a half's last point stores is computed from the running sum as that point leaves it. -/
theorem out_C_eq (hc0 : ¬cond0_0 i) (hc1 : cond0_1 i) (xs0 : Vec F S1x128 .f32) :
    out0_C_2 c i arg2 harg2 arg3 harg3 arg4 harg4 arg5 harg5 hc0 hc1 x0 x1 xs0
      = k0_pay2 (sout0_C_0 c i arg2 harg2 arg3 harg3 arg4 harg4 arg5 harg5 hc0 hc1 x0 x1 xs0) := by
  unfold out0_C_2
  rw [View.read_writes_eq_canon _ _ _ (cover0_C_2 c i arg2 harg2 arg3 harg3 arg4 harg4 arg5 harg5 hc0 hc1 x0 x1 xs0)]
  unfold sout0_C_0 kernelRun0_C
  dsimp only
  sl_unfold_words
  rw [View.canon_unit_zero (S := S1x128) hz]
  simp only [View.readAt_eq_ld, View.ld_unit_zero (S := S1x128) hz]

/-- A half's first point: lane `j < 24` ends at the step of the zeros just stored, -/
theorem sout_A_lo (hc0 : cond0_0 i) (hc1 : ¬cond0_1 i) (j : Fin 24) :
    sout0_A_0 c i arg2 harg2 arg3 harg3 arg4 harg4 arg5 harg5 hc0 hc1 x0 x1 (ix2 (0 : Fin 1) (laneOf j))
      = step x0 x1 (View.ld (k0_pay3 (F := F)) RAcc) (ix2 (0 : Fin 1) j) := by
  unfold sout0_A_0 kernelRun0_A
  dsimp only
  sl_unfold_words
  refine (View.read_writes_cons_unit_of_mem VS0_0 VS0_0.junk inb_S1x128_S1x24_0_0 _ _ (ix2 (0 : Fin 1) (laneOf j))
    (ix2 (0 : Fin 1) j) rfl (fun a => match a with
      | ⟨0, _⟩ => rfl
      | ⟨1, _⟩ => (Nat.zero_add _).symm)).trans ?_
  have hcov : ∀ y : S1x128.Idx, ∃ p ∈ [(⟨Rect.unit (s := S1x128) ![0, 0] S1x128.size inb_S1x128_S1x128_0_0, k0_pay3 (F := F)⟩ :
      View.Piece (Elt F) S1x128 .f32)], y ∈ p.1.set :=
    fun y => ⟨_, List.mem_singleton_self _, View.mem_set_unit_zero (S := S1x128) hz inb_S1x128_S1x128_0_0 y⟩
  have e : arg5.view.readCov [(⟨Rect.unit (s := S1x128) ![0, 0] S1x128.size inb_S1x128_S1x128_0_0, k0_pay3 (F := F)⟩ :
      View.Piece (Elt F) S1x128 .f32)] RAcc.toLoadRect = View.ld (k0_pay3 (F := F)) RAcc :=
    (View.readCov_eq_canon_ld arg5.view _ RAcc hcov).trans (by rw [View.canon_unit_zero (S := S1x128) hz])
  rw [e]
  simp only [View.readAt_eq_ld, harg2.read_unread, harg3.read_unread]
  rfl

/-- and the lanes from 24 on hold those zeros. -/
theorem sout_A_hi (hc0 : cond0_0 i) (hc1 : ¬cond0_1 i) (l : Fin 128) (hl : 24 ≤ l.val) :
    sout0_A_0 c i arg2 harg2 arg3 harg3 arg4 harg4 arg5 harg5 hc0 hc1 x0 x1 (ix2 (0 : Fin 1) l) = k0_pay3 (F := F) (ix2 (0 : Fin 1) l) := by
  unfold sout0_A_0 kernelRun0_A
  dsimp only
  sl_unfold_words
  refine (View.read_writes_cons_unit_of_not_mem VS0_0 VS0_0.junk inb_S1x128_S1x24_0_0 _ _ (ix2 (0 : Fin 1) l) rfl 1
    (Or.inr (by show 0 + 24 ≤ l.val; omega))).trans ?_
  exact View.read_writes_cons_unit_of_mem VS0_0 VS0_0.junk inb_S1x128_S1x128_0_0 _ [] (ix2 (0 : Fin 1) l) (ix2 (0 : Fin 1) l) rfl
    (fun a => match a with
      | ⟨0, _⟩ => rfl
      | ⟨1, _⟩ => (Nat.zero_add _).symm)

end Cases

end Cert.KernelIdeal.CaseValue

end
-- ==== Proof.BodyValue.lean ====
/-
  The body's arithmetic, read at the extended reals on blocks of real numbers.

  At one grid point the body loads the first 24 columns of a block of 8192 rows of each input, takes exponentials,
  multiplies them by the 24 × 24 matrix that has a one where row and column lie in the same group of four
  consecutive columns and a zero elsewhere — so that each entry of the product is the sum of its group's four
  exponentials, the softmax denominator —, forms `3 · exp p / denominator − t`, squares it, sums each column over
  the 8192 rows, and adds the 24 column sums to the first 24 lanes of a 128-lane running sum. At a half's last point
  the 128 lanes are added up and the total is placed in lane 0 of the output block, zeros in the other lanes.
-/
import proofs.«116759_j5935644803606_2_alg».proof.Proof.Gen.KernelIdeal.Skeleton
import proofs.«116759_j5935644803606_2_alg».proof.Proof.GridSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-! ## Real numbers among the extended reals -/

/-- A finite sum of real numbers, taken among the extended reals, is the real sum. -/
theorem coe_sum {ι : Type} (s : Finset ι) (f : ι → ℝ) :
    ∑ i ∈ s, ((f i : ℝ) : EReal) = ((∑ i ∈ s, f i : ℝ) : EReal) := by
  classical
  refine Finset.induction_on s (by simp) (fun a s ha ih => ?_)
  rw [Finset.sum_insert ha, Finset.sum_insert ha, ih, EReal.coe_add]

/-- The quotient of two real numbers by a nonzero divisor is the real quotient. -/
theorem div_real (a b : ℝ) (hb : b ≠ 0) : Ideal.div (a : EReal) (b : EReal) = ((a / b : ℝ) : EReal) := by
  rw [Ideal.div_coe hb, ← EReal.coe_mul]
  congr 1
  ring

/-- The literal `3.0`. -/
theorem lit_three : (Scalar.ofBits (F := Ideal) .f32 0x40400000#32) = ((3 : ℝ) : EReal) := by
  show Ideal.ofBits .f32 0x40400000#32 = _
  simp [Ideal.ofBits, Ideal.ieee]
  rw [← EReal.coe_mul]; congr 1; norm_num

/-- The literal `1.0`. -/
theorem lit_one : (Scalar.ofBits (F := Ideal) .f32 0x3F800000#32) = ((1 : ℝ) : EReal) := by
  show Ideal.ofBits .f32 0x3F800000#32 = _
  simp [Ideal.ofBits, Ideal.ieee]
  rw [← EReal.coe_mul, ← EReal.coe_one]; congr 1; norm_num

/-- The literal `0.0`. -/
theorem lit_zero : (Scalar.ofBits (F := Ideal) .f32 0x00000000#32) = ((0 : ℝ) : EReal) :=
  Ideal.ofBits_zero_f32

/-! ## The group matrix -/

/-- Whether two of the 24 columns lie in the same group of four, as the body computes it from two iotas by integer
    division rounded toward minus infinity. -/
def groupMask : IVec S24x24 1 :=
  cmpi .eq k0_pay5 (select (andi (cmpi .ne k0_pay7 (broadcast S24x24 (Scalar.subi (Scalar.extui (Scalar.cmpi .sgt 4#32 0#32)) (Scalar.extui (Scalar.cmpi .slt 4#32 0#32))))) (cmpi .ne (remsi (iota .tc S24x24 32 [1] iota_S24x24_d1_w32) (broadcast S24x24 4#32)) (broadcast S24x24 0#32))) (subi k0_pay6 (broadcast S24x24 1#32)) k0_pay6)

/-- It is one exactly where the two column numbers have the same quotient by four: decided over the 576 entries. -/
theorem groupMask_apply : ∀ k j : Fin 24, groupMask (ix2 k j) = if k.val / 4 = j.val / 4 then 1#1 else 0#1 := by
  decide +kernel

variable {F : FTy → Type} [FloatOps F]

/-- The 24 × 24 matrix of ones within a group and zeros across groups. -/
def groupOnes : FVec F S24x24 .f32 :=
  select groupMask (broadcast S24x24 (Scalar.ofBits .f32 0x3F800000#32)) (broadcast S24x24 (Scalar.ofBits .f32 0x00000000#32))

/-- The block of squared errors: from the target block `v4` and the exponentials `v5` of the prediction block. -/
def sqBlock (v4 : Vec F S8192x24 .f32) (v5 : FVec F S8192x24 .f32) : FVec F S8192x24 .f32 :=
  mulf (subf (divf (mulf (broadcast S8192x24 (Scalar.ofBits .f32 0x40400000#32)) v5) (matmul dot_S8192x24_S24x24_S8192x24_1_0_0_1_n_n none v5 groupOnes (constant S8192x24 .f32 0x00000000#32))) v4)
       (subf (divf (mulf (broadcast S8192x24 (Scalar.ofBits .f32 0x40400000#32)) v5) (matmul dot_S8192x24_S24x24_S8192x24_1_0_0_1_n_n none v5 groupOnes (constant S8192x24 .f32 0x00000000#32))) v4)

/-- The value the body stores back into the running sum's first 24 lanes: what it loaded from them plus the column
    sums of the block of squared errors. -/
theorem pay1_eq (v4 : Vec F S8192x24 .f32) (v5 : FVec F S8192x24 .f32) (v68 : Vec F S1x24 .f32) :
    k0_pay1 v4 v5 k0_pay5 (iota .tc S24x24 32 [1] iota_S24x24_d1_w32) 4#32 k0_pay6 k0_pay7 v68
      = shapeCast S1x24 (addf v68 (shapeCast S1x24 (multiReduction .add [0] S24 (sqBlock v4 v5) 0x00000000#32 reduces_S8192x24_S24 (.inl rfl) rfl) shapeCasts_S24_S1x24)) shapeCasts_S1x24_S1x24 := rfl

/-! ## The matrix product is the group's sum -/

abbrev D := dot_S8192x24_S24x24_S8192x24_1_0_0_1_n_n

theorem lhs_row (j : S8192x24.Idx) (k : D.contr.Idx) : (D.lhsIdx j k 0 : ℕ) = j 0 := by
  simp [DotDims.lhsIdx, D, dot_S8192x24_S24x24_S8192x24_1_0_0_1_n_n]; rfl
theorem lhs_col (j : S8192x24.Idx) (k : D.contr.Idx) : (D.lhsIdx j k 1 : ℕ) = k ⟨0, by decide⟩ := by
  simp [DotDims.lhsIdx, D, dot_S8192x24_S24x24_S8192x24_1_0_0_1_n_n]; rfl
theorem rhs_row (j : S8192x24.Idx) (k : D.contr.Idx) : (D.rhsIdx j k 0 : ℕ) = k ⟨0, by decide⟩ := by
  simp [DotDims.rhsIdx, D, dot_S8192x24_S24x24_S8192x24_1_0_0_1_n_n]; rfl
theorem rhs_col (j : S8192x24.Idx) (k : D.contr.Idx) : (D.rhsIdx j k 1 : ℕ) = j 1 := by
  simp [DotDims.rhsIdx, D, dot_S8192x24_S24x24_S8192x24_1_0_0_1_n_n]; rfl

/-- The product of a block `e` with the group matrix, at row `r` and column `j`: the sum over the 24 columns `k` of
    `e r k` times one or zero according to whether `k` is in `j`'s group. -/
theorem groupProduct_apply (e : FVec Ideal S8192x24 .f32) (r : Fin 8192) (j : Fin 24) :
    matmul (F := Ideal) D none e (groupOnes (F := Ideal)) (constant S8192x24 .f32 0x00000000#32) (ix2 r j)
      = ∑ k : Fin 24, e (ix2 r k) * (((if k.val / 4 = j.val / 4 then (1 : ℝ) else 0 : ℝ)) : EReal) := by
  simp only [matmul]
  rw [Ideal.matmul_constant_zero_apply, ← Equiv.sum_comp (contrEquiv1 D 24 rfl rfl).symm]
  refine Finset.sum_congr rfl fun k _ => ?_
  have hl : D.lhsIdx (ix2 r j) ((contrEquiv1 D 24 rfl rfl).symm k) = ix2 r k :=
    funext fun a => Fin.ext (match a with
      | ⟨0, _⟩ => lhs_row _ _
      | ⟨1, _⟩ => (lhs_col _ _).trans (contrEquiv1_symm_val D 24 rfl rfl k))
  have hr : D.rhsIdx (ix2 r j) ((contrEquiv1 D 24 rfl rfl).symm k) = ix2 k j :=
    funext fun a => Fin.ext (match a with
      | ⟨0, _⟩ => (rhs_row _ _).trans (contrEquiv1_symm_val D 24 rfl rfl k)
      | ⟨1, _⟩ => rhs_col _ _)
  rw [hl, hr]
  congr 1
  show Scalar.select (groupMask (ix2 k j)) _ _ = _
  rw [groupMask_apply]
  by_cases h : k.val / 4 = j.val / 4
  · rw [if_pos h, if_pos h, select_one]; exact lit_one
  · rw [if_neg h, if_neg h, select_zero]; exact lit_zero

/-! ## The block of squared errors, the column sums, the running sum -/

/-- Column `i` of column `j`'s group, among the 24 used columns. -/
def grp24 (j : Fin 24) (i : Fin 4) : Fin 24 := ⟨4 * (j.val / 4) + i.val, by omega⟩

/-- Summing over the 24 columns with weight one on `j`'s group and zero elsewhere is summing over the group. -/
theorem group_sum (f : Fin 24 → ℝ) (j : Fin 24) :
    ∑ k : Fin 24, f k * (if k.val / 4 = j.val / 4 then (1 : ℝ) else 0) = ∑ i : Fin 4, f (grp24 j i) := by
  simp only [mul_ite, mul_one, mul_zero]
  rw [← Finset.sum_filter]
  have e : ∀ j : Fin 24, Finset.univ.filter (fun k : Fin 24 => k.val / 4 = j.val / 4) = Finset.univ.image (grp24 j) := by
    decide +kernel
  have inj : ∀ j : Fin 24, ∀ a ∈ (Finset.univ : Finset (Fin 4)), ∀ b ∈ (Finset.univ : Finset (Fin 4)),
      grp24 j a = grp24 j b → a = b := by
    decide +kernel
  rw [e j, Finset.sum_image (inj j)]

/-- Three times the softmax of a block's row over a column's group, minus the target block's entry. -/
def blockErr (xP xT : S8192x24.Idx → ℝ) (r : Fin 8192) (j : Fin 24) : ℝ :=
  3 * Real.exp (xP (ix2 r j)) / (∑ i : Fin 4, Real.exp (xP (ix2 r (grp24 j i)))) - xT (ix2 r j)

theorem exp_real (xP : S8192x24.Idx → ℝ) (i : S8192x24.Idx) :
    exp (F := Ideal) (φ := .f32) (fun i => ((xP i : ℝ) : EReal)) i = ((Real.exp (xP i) : ℝ) : EReal) := rfl

/-- On blocks of real numbers the block of squared errors is, entry by entry, the square of that real error. -/
theorem sqBlock_apply (xT xP : S8192x24.Idx → ℝ) (r : Fin 8192) (j : Fin 24) :
    sqBlock (F := Ideal) (fun i => ((xT i : ℝ) : EReal)) (exp (fun i => ((xP i : ℝ) : EReal))) (ix2 r j)
      = ((blockErr xP xT r j * blockErr xP xT r j : ℝ) : EReal) := by
  have hden : matmul (F := Ideal) D none (exp (F := Ideal) (φ := .f32) (fun i => ((xP i : ℝ) : EReal))) (groupOnes (F := Ideal))
      (constant S8192x24 .f32 0x00000000#32) (ix2 r j)
      = ((∑ i : Fin 4, Real.exp (xP (ix2 r (grp24 j i))) : ℝ) : EReal) := by
    rw [groupProduct_apply]
    have hk : ∀ k : Fin 24, exp (F := Ideal) (φ := .f32) (fun i => ((xP i : ℝ) : EReal)) (ix2 r k)
        * (((if k.val / 4 = j.val / 4 then (1 : ℝ) else 0 : ℝ)) : EReal)
        = ((Real.exp (xP (ix2 r k)) * (if k.val / 4 = j.val / 4 then (1 : ℝ) else 0) : ℝ) : EReal) := fun k => by
      rw [exp_real, ← EReal.coe_mul]
    rw [Finset.sum_congr rfl (fun k _ => hk k), coe_sum, group_sum (fun k => Real.exp (xP (ix2 r k))) j]
  have hpos : (∑ i : Fin 4, Real.exp (xP (ix2 r (grp24 j i)))) ≠ 0 :=
    ne_of_gt (Finset.sum_pos (fun _ _ => Real.exp_pos _) Finset.univ_nonempty)
  have hq : divf (mulf (broadcast S8192x24 (Scalar.ofBits (F := Ideal) .f32 0x40400000#32)) (exp (F := Ideal) (φ := .f32) (fun i => ((xP i : ℝ) : EReal))))
      (matmul (F := Ideal) D none (exp (F := Ideal) (φ := .f32) (fun i => ((xP i : ℝ) : EReal))) (groupOnes (F := Ideal)) (constant S8192x24 .f32 0x00000000#32)) (ix2 r j)
      = ((3 * Real.exp (xP (ix2 r j)) / (∑ i : Fin 4, Real.exp (xP (ix2 r (grp24 j i)))) : ℝ) : EReal) := by
    show Ideal.div (Scalar.ofBits (F := Ideal) .f32 0x40400000#32 * exp (F := Ideal) (φ := .f32) (fun i => ((xP i : ℝ) : EReal)) (ix2 r j)) _ = _
    rw [hden, lit_three, exp_real, ← EReal.coe_mul, div_real _ _ hpos]
  unfold sqBlock
  rw [mulf_apply, subf_apply, hq]
  beta_reduce
  rw [← EReal.coe_sub, ← EReal.coe_mul]
  rfl

/-- The column sums of a block's squared errors, added to the running sum's first 24 lanes. -/
theorem pay1_apply (xT xP : S8192x24.Idx → ℝ) (a : S1x24.Idx → ℝ) (j : Fin 24) :
    k0_pay1 (F := Ideal) (fun i => ((xT i : ℝ) : EReal)) (k0_pay4 (F := Ideal) (fun i => ((xP i : ℝ) : EReal))) k0_pay5
        (iota .tc S24x24 32 [1] iota_S24x24_d1_w32) 4#32 k0_pay6 k0_pay7 (fun i => ((a i : ℝ) : EReal)) (ix2 (0 : Fin 1) j)
      = ((a (ix2 0 j) + ∑ r : Fin 8192, blockErr xP xT r j * blockErr xP xT r j : ℝ) : EReal) := by
  rw [pay1_eq, shapeCast_self]
  show ((a (ix2 0 j) : ℝ) : EReal) + shapeCast S1x24 _ shapeCasts_S24_S1x24 (ix2 (0 : Fin 1) j) = _
  rw [shapeCast_a_1a_apply]
  refine (congrArg (((a (ix2 0 j) : ℝ) : EReal) + ·) (Ideal.multiReduction_add_single
    (sqBlock (F := Ideal) (fun i => ((xT i : ℝ) : EReal)) (k0_pay4 (F := Ideal) (fun i => ((xP i : ℝ) : EReal))))
    0x00000000#32 reduces_S8192x24_S24 (.inl rfl) rfl (ix1 j))).trans ?_
  have hl : ∀ k : Fin 8192, reduces_S8192x24_S24.lift (ix1 j) k = ix2 k j := fun k =>
    funext fun b => Fin.ext (match b with | ⟨0, _⟩ => rfl | ⟨1, _⟩ => rfl)
  have hs : ∀ k : Fin 8192, sqBlock (F := Ideal) (fun i => ((xT i : ℝ) : EReal)) (k0_pay4 (F := Ideal) (fun i => ((xP i : ℝ) : EReal)))
      (reduces_S8192x24_S24.lift (ix1 j) k) = ((blockErr xP xT k j * blockErr xP xT k j : ℝ) : EReal) := fun k => by
    rw [hl k]; exact sqBlock_apply xT xP k j
  show _ + ∑ k : Fin 8192, sqBlock (F := Ideal) _ _ (reduces_S8192x24_S24.lift (ix1 j) k) = _
  rw [Finset.sum_congr rfl (fun k _ => hs k), coe_sum, ← EReal.coe_add]

/-! ## The half's total into lane 0 -/

/-- The lane mask of the output block: one in lane 0, zero in the other 127 lanes (decided). -/
theorem lane0_apply : ∀ l : Fin 128,
    cmpi .eq (iota .tc S1x128 32 [1] iota_S1x128_d1_w32) (broadcast S1x128 0#32) (ix2 (0 : Fin 1) l)
      = if l.val = 0 then 1#1 else 0#1 := by
  decide +kernel

/-- What a half's last point stores into the output block, from a running sum of real numbers: their total over the 128
    lanes in lane 0, zeros elsewhere. -/
theorem pay2_apply (s : S1x128.Idx → ℝ) (l : Fin 128) :
    k0_pay2 (F := Ideal) (fun i => ((s i : ℝ) : EReal)) (ix2 (0 : Fin 1) l)
      = if l.val = 0 then ((∑ i : Fin 128, s (ix2 0 i) : ℝ) : EReal) else ((0 : ℝ) : EReal) := by
  unfold k0_pay2
  show Scalar.select (cmpi .eq (iota .tc S1x128 32 [1] iota_S1x128_d1_w32) (broadcast S1x128 0#32) (ix2 (0 : Fin 1) l)) _ _ = _
  rw [lane0_apply]
  by_cases h : l.val = 0
  · rw [if_pos h, if_pos h, select_one]
    show multiReduction (F := Ideal) .add [1, 2] S1 (shapeCast S1x1x128 (fun i => ((s i : ℝ) : EReal)) shapeCasts_S1x128_S1x1x128) 0x00000000#32
      reduces_S1x1x128_S1 (.inl rfl) rfl _ = _
    refine (Ideal.multiReduction_add_total (shapeCast S1x1x128 (fun i => ((s i : ℝ) : EReal)) shapeCasts_S1x128_S1x1x128)
      0x00000000#32 reduces_S1x1x128_S1 (by decide) (.inl rfl) rfl _).trans ?_
    unfold shapeCast
    rw [Equiv.sum_comp (Shape.reshapeEquiv shapeCasts_S1x128_S1x1x128) (fun i => ((s i : ℝ) : EReal)), sum_idx2,
      Fin.sum_univ_one, coe_sum]
  · rw [if_neg h, if_neg h, select_zero]; exact lit_zero

/-- What a half's first point stores into the running sum before anything else: zeros. -/
theorem pay3_eq : k0_pay3 (F := Ideal) = fun _ => ((0 : ℝ) : EReal) := by
  unfold k0_pay3
  show shapeCast S1x128 (broadcast S1x128 (Scalar.ofBits (F := Ideal) .f32 0x00000000#32)) shapeCasts_S1x128_S1x128 = _
  rw [shapeCast_self]
  funext i
  exact lit_zero

/-- A running sum that is zero past lane 24 totals to the sum of its first 24 lanes. -/
theorem lanes_sum (g : Fin 24 → ℝ) :
    ∑ i : Fin 128, (if h : i.val < 24 then g ⟨i.val, h⟩ else 0) = ∑ j : Fin 24, g j := by
  refine (Fin.sum_univ_add (a := 24) (b := 104) (fun i : Fin 128 => if h : i.val < 24 then g ⟨i.val, h⟩ else 0)).trans ?_
  have h1 : ∀ i : Fin 24, (if h : (Fin.castAdd 104 i).val < 24 then g ⟨(Fin.castAdd 104 i).val, h⟩ else 0) = g i :=
    fun i => by rw [dif_pos (by simp)]; rfl
  have h2 : ∀ i : Fin 104, (if h : (Fin.natAdd 24 i).val < 24 then g ⟨(Fin.natAdd 24 i).val, h⟩ else 0) = 0 :=
    fun i => by rw [dif_neg (by simp)]
  rw [Finset.sum_congr rfl (fun i _ => h1 i), Finset.sum_congr rfl (fun i _ => h2 i), Finset.sum_const_zero, add_zero]

end Cert.KernelIdeal.BodyValue

end
-- ==== Proof.Accumulation.lean ====
/-
  The running sum, point by point.

  With every input entry a real number, the buffer the body carries between grid points holds, after point `n`, the
  real numbers `runSum n j` in its lanes `j < 24` and zeros in the other lanes: by induction on the point. At a
  half's last point the output block therefore receives the half's total in lane 0 and zeros elsewhere.
-/
import proofs.«116759_j5935644803606_2_alg».proof.Proof.CaseValues
import proofs.«116759_j5935644803606_2_alg».proof.Proof.BodyValue

noncomputable section

open scoped BigOperators

namespace Cert.KernelIdeal.Accumulation

open Cert.KernelIdeal Cert.KernelIdeal.Gen Idealize.ShloMosaic Idealize.ShloMosaic.TcCoe Idealize.SL.Sem
open Idealize.ShloMosaic.ValueIdx Cert.SoftmaxLoss Cert.KernelIdeal.CaseValue Cert.KernelIdeal.BodyValue

/-! ## One point, on blocks of real numbers -/

/-- The squared error at row `r`, column `j` of a pair of 25-column blocks of real numbers. -/
def sqE (X0 X1 : S8192x25.Idx → ℝ) (r : Fin 8192) (j : Fin 24) : ℝ :=
  blockErr (fun i => X0 (R24.idx i)) (fun i => X1 (R24.idx i)) r j * blockErr (fun i => X0 (R24.idx i)) (fun i => X1 (R24.idx i)) r j

/-- The lanes after a point that adds to lanes `A`: the first 24 grow by the point's column sums. -/
def nextLanes (X0 X1 : S8192x25.Idx → ℝ) (A : S1x128.Idx → ℝ) : S1x128.Idx → ℝ := fun y =>
  if h : (y 1).val < 24 then A (RAcc.idx (ix2 (0 : Fin 1) (⟨(y 1).val, h⟩ : Fin 24))) + ∑ r : Fin 8192, sqE X0 X1 r ⟨(y 1).val, h⟩
  else A y

/-- The step of the first 24 lanes on real numbers. -/
theorem step_real (X0 X1 : S8192x25.Idx → ℝ) (a : S1x24.Idx → ℝ) (j : Fin 24) :
    step (F := Ideal) (fun y => ((X0 y : ℝ) : EReal)) (fun y => ((X1 y : ℝ) : EReal)) (fun y => ((a y : ℝ) : EReal)) (ix2 (0 : Fin 1) j)
      = ((a (ix2 0 j) + ∑ r : Fin 8192, sqE X0 X1 r j : ℝ) : EReal) :=
  pay1_apply (fun i => X1 (R24.idx i)) (fun i => X0 (R24.idx i)) a j

section Cases

variable (c : Dev nD) (i : grid0.Coords) (arg2 : Memref sig .tc .vmem S8192x25 .f32) (harg2 : arg2.IsWhole)
  (arg3 : Memref sig .tc .vmem S8192x25 .f32) (harg3 : arg3.IsWhole) (arg4 : Memref sig .tc .vmem S1x128 .f32) (harg4 : arg4.IsWhole)
  (arg5 : Memref sig .tc .vmem S1x128 .f32) (harg5 : arg5.IsWhole)
  (x0 x1 : Vec Ideal S8192x25 .f32) (X0 X1 : S8192x25.Idx → ℝ)
  (h0 : x0 = fun y => ((X0 y : ℝ) : EReal)) (h1 : x1 = fun y => ((X1 y : ℝ) : EReal))

/-- Every lane index is lane `l` of the one row. -/
theorem lane_cases (y : S1x128.Idx) : ∃ l : Fin 128, y = ix2 (0 : Fin 1) l := by
  have h0 : (y 0).val < 1 := (y 0).isLt
  refine ⟨y 1, funext fun a => ?_⟩
  match a with
  | ⟨0, _⟩ => exact Fin.ext (by show (y 0).val = 0; omega)
  | ⟨1, _⟩ => rfl

include h0 h1 in
/-- A middle point of a half, on real numbers. -/
theorem scratch_B (hc0 : ¬cond0_0 i) (hc1 : ¬cond0_1 i) (xs0 : Vec Ideal S1x128 .f32) (A : S1x128.Idx → ℝ)
    (hs : xs0 = fun y => ((A y : ℝ) : EReal)) :
    sout0_B_0 c i arg2 harg2 arg3 harg3 arg4 harg4 arg5 harg5 hc0 hc1 x0 x1 xs0 = fun y => ((nextLanes X0 X1 A y : ℝ) : EReal) := by
  subst h0 h1 hs
  funext y
  obtain ⟨l, rfl⟩ := lane_cases y
  by_cases hl : l.val < 24
  · obtain ⟨j, rfl⟩ : ∃ j : Fin 24, l = laneOf j := ⟨⟨l.val, hl⟩, Fin.ext rfl⟩
    refine (sout_B_lo c i arg2 harg2 arg3 harg3 arg4 harg4 arg5 harg5 _ _ hc0 hc1 _ j).trans ?_
    refine (step_real X0 X1 (fun i => A (RAcc.idx i)) j).trans ?_
    unfold nextLanes
    rw [dif_pos (show ((ix2 (0 : Fin 1) (laneOf j) : S1x128.Idx) 1).val < 24 from j.isLt)]
    rfl
  · refine (sout_B_hi c i arg2 harg2 arg3 harg3 arg4 harg4 arg5 harg5 _ _ hc0 hc1 _ l (by omega)).trans ?_
    unfold nextLanes
    rw [dif_neg (show ¬((ix2 (0 : Fin 1) l : S1x128.Idx) 1).val < 24 from hl)]

include h0 h1 in
/-- A half's last point, on real numbers: the running sum, -/
theorem scratch_C (hc0 : ¬cond0_0 i) (hc1 : cond0_1 i) (xs0 : Vec Ideal S1x128 .f32) (A : S1x128.Idx → ℝ)
    (hs : xs0 = fun y => ((A y : ℝ) : EReal)) :
    sout0_C_0 c i arg2 harg2 arg3 harg3 arg4 harg4 arg5 harg5 hc0 hc1 x0 x1 xs0 = fun y => ((nextLanes X0 X1 A y : ℝ) : EReal) := by
  subst h0 h1 hs
  funext y
  obtain ⟨l, rfl⟩ := lane_cases y
  by_cases hl : l.val < 24
  · obtain ⟨j, rfl⟩ : ∃ j : Fin 24, l = laneOf j := ⟨⟨l.val, hl⟩, Fin.ext rfl⟩
    refine (sout_C_lo c i arg2 harg2 arg3 harg3 arg4 harg4 arg5 harg5 _ _ hc0 hc1 _ j).trans ?_
    refine (step_real X0 X1 (fun i => A (RAcc.idx i)) j).trans ?_
    unfold nextLanes
    rw [dif_pos (show ((ix2 (0 : Fin 1) (laneOf j) : S1x128.Idx) 1).val < 24 from j.isLt)]
    rfl
  · refine (sout_C_hi c i arg2 harg2 arg3 harg3 arg4 harg4 arg5 harg5 _ _ hc0 hc1 _ l (by omega)).trans ?_
    unfold nextLanes
    rw [dif_neg (show ¬((ix2 (0 : Fin 1) l : S1x128.Idx) 1).val < 24 from hl)]

include h0 h1 in
/-- and the output block: the total of the lanes in lane 0, zeros elsewhere. -/
theorem out_C (hc0 : ¬cond0_0 i) (hc1 : cond0_1 i) (xs0 : Vec Ideal S1x128 .f32) (A : S1x128.Idx → ℝ)
    (hs : xs0 = fun y => ((A y : ℝ) : EReal)) :
    out0_C_2 c i arg2 harg2 arg3 harg3 arg4 harg4 arg5 harg5 hc0 hc1 x0 x1 xs0
      = fun y => if (y 1).val = 0 then ((∑ l : Fin 128, nextLanes X0 X1 A (ix2 (0 : Fin 1) l) : ℝ) : EReal) else ((0 : ℝ) : EReal) := by
  rw [out_C_eq, scratch_C c i arg2 harg2 arg3 harg3 arg4 harg4 arg5 harg5 x0 x1 X0 X1 h0 h1 hc0 hc1 xs0 A hs]
  funext y
  obtain ⟨l, rfl⟩ := lane_cases y
  exact pay2_apply (nextLanes X0 X1 A) l

include h0 h1 in
/-- A half's first point, on real numbers: the lanes restart from zero. -/
theorem scratch_A (hc0 : cond0_0 i) (hc1 : ¬cond0_1 i) :
    sout0_A_0 c i arg2 harg2 arg3 harg3 arg4 harg4 arg5 harg5 hc0 hc1 x0 x1 = fun y => ((nextLanes X0 X1 (fun _ => 0) y : ℝ) : EReal) := by
  subst h0 h1
  funext y
  obtain ⟨l, rfl⟩ := lane_cases y
  by_cases hl : l.val < 24
  · obtain ⟨j, rfl⟩ : ∃ j : Fin 24, l = laneOf j := ⟨⟨l.val, hl⟩, Fin.ext rfl⟩
    refine (sout_A_lo c i arg2 harg2 arg3 harg3 arg4 harg4 arg5 harg5 _ _ hc0 hc1 j).trans ?_
    rw [pay3_eq]
    refine (step_real X0 X1 (fun _ => 0) j).trans ?_
    unfold nextLanes
    rw [dif_pos (show ((ix2 (0 : Fin 1) (laneOf j) : S1x128.Idx) 1).val < 24 from j.isLt)]
    rfl
  · refine (sout_A_hi c i arg2 harg2 arg3 harg3 arg4 harg4 arg5 harg5 _ _ hc0 hc1 l (by omega)).trans ?_
    rw [pay3_eq]
    unfold nextLanes
    rw [dif_neg (show ¬((ix2 (0 : Fin 1) l : S1x128.Idx) 1).val < 24 from hl)]

end Cases

end Cert.KernelIdeal.Accumulation

end
-- ==== Proof.PointBlocks.lean ====
/-
  From the blocks of the arrays to the two halves' totals.

  The block a window hands the body at grid point `t` is rows `8192·t … 8192·t + 8191` of its array, so the point's
  column sums are the specification's `colSum t`. By induction on the point the carried lanes hold the
  specification's running sums, and the output block stored at a half's last point holds the half's total.
-/
import proofs.«116759_j5935644803606_2_alg».proof.Proof.Accumulation

noncomputable section

open scoped BigOperators

namespace Cert.KernelIdeal.Points

open Cert.KernelIdeal Cert.KernelIdeal.Gen Idealize.ShloMosaic Idealize.ShloMosaic.TcCoe Idealize.SL.Sem
open Idealize.ShloMosaic.ValueIdx Cert.SoftmaxLoss Cert.KernelIdeal.CaseValue Cert.KernelIdeal.BodyValue
open Cert.KernelIdeal.Accumulation

/-- A grid point as one of the 256 blocks. -/
def blk (t : Fin cfg0.N) : Fin 256 := ⟨t.val, lt_of_lt_of_eq t.isLt N_0⟩

/-- The two input windows' block index at point `t` is `(t, 0)`: decided over the grid. -/
theorem idx0_facts : ∀ t : Fin cfg0.N, win0_0.index t 0 = t.val ∧ win0_0.index t 1 = 0 :=
  (by decide +kernel : ∀ t : Fin grid0.N, win0_0.index t 0 = t.val ∧ win0_0.index t 1 = 0)
theorem idx1_facts : ∀ t : Fin cfg0.N, win0_1.index t 0 = t.val ∧ win0_1.index t 1 = 0 :=
  (by decide +kernel : ∀ t : Fin grid0.N, win0_1.index t 0 = t.val ∧ win0_1.index t 1 = 0)

/-- Block `t` of an array of real numbers. -/
def blockOf (Q : SIn.Idx → ℝ) (t : Fin 256) : S8192x25.Idx → ℝ := fun y =>
  Q (ix2 (rowOf t (⟨(y 0).val, (y 0).isLt⟩ : Fin 8192)) (⟨(y 1).val, (y 1).isLt⟩ : Fin 25))

/-- Its first 24 columns, entry by entry. -/
theorem blockOf_lo (Q : SIn.Idx → ℝ) (t : Fin 256) (r : Fin 8192) (j : Fin 24) :
    blockOf Q t (R24.idx (ix2 r j)) = Q (ix2 (rowOf t r) (col j)) := by
  unfold blockOf
  have e0 : (⟨(R24.idx (ix2 r j) 0).val, (R24.idx (ix2 r j) 0).isLt⟩ : Fin 8192) = r :=
    Fin.ext (by show 0 + 1 * r.val = r.val; omega)
  have e1 : (⟨(R24.idx (ix2 r j) 1).val, (R24.idx (ix2 r j) 1).isLt⟩ : Fin 25) = col j :=
    Fin.ext (by show 0 + 1 * j.val = j.val; omega)
  rw [e0, e1]

/-- The squared error inside block `t` is the specification's, at the block's row in the whole array. -/
theorem sqE_block (P T : SIn.Idx → ℝ) (t : Fin 256) (r : Fin 8192) (j : Fin 24) :
    sqE (blockOf P t) (blockOf T t) r j = sqErr P T (rowOf t r) j := by
  have hg : ∀ i : Fin 4, col (grp24 j i) = grp j i := fun i => Fin.ext rfl
  unfold sqE blockErr sqErr err
  simp only [blockOf_lo, hg]

variable (P T : SIn.Idx → ℝ)

/-- The lanes after block `n`: the running sums in the first 24, zeros in the others. -/
def lanesAt (n : Fin 256) : S1x128.Idx → ℝ := fun y =>
  if h : (y 1).val < 24 then runSum P T n ⟨(y 1).val, h⟩ else 0

theorem lanesAt_lo (n : Fin 256) (j : Fin 24) : lanesAt P T n (RAcc.idx (ix2 (0 : Fin 1) j)) = runSum P T n j := by
  unfold lanesAt
  rw [dif_pos (show (RAcc.idx (ix2 (0 : Fin 1) j) 1).val < 24 from by show 0 + 1 * j.val < 24; omega)]
  exact congrArg (runSum P T n) (Fin.ext (by show 0 + 1 * j.val = j.val; omega))

/-- A half's first block starts the lanes at its own column sums. -/
theorem nextLanes_first (t : Fin 256) (h : t.val % 128 = 0) :
    nextLanes (blockOf P t) (blockOf T t) (fun _ => 0) = lanesAt P T t := by
  funext y
  unfold nextLanes lanesAt
  by_cases hl : (y 1).val < 24
  · rw [dif_pos hl, dif_pos hl, runSum_first P T t h, zero_add]
    exact Finset.sum_congr rfl fun r _ => sqE_block P T t r _
  · rw [dif_neg hl, dif_neg hl]

/-- Any other block adds its column sums to the lanes. -/
theorem nextLanes_next (t t' : Fin 256) (ht : t'.val = t.val + 1) (h : ¬t'.val % 128 = 0) :
    nextLanes (blockOf P t') (blockOf T t') (lanesAt P T t) = lanesAt P T t' := by
  funext y
  unfold nextLanes
  by_cases hl : (y 1).val < 24
  · rw [dif_pos hl, lanesAt_lo]
    unfold lanesAt
    rw [dif_pos hl, runSum_next P T t t' ht h]
    exact congrArg (runSum P T t _ + ·) (Finset.sum_congr rfl fun r _ => sqE_block P T t' r _)
  · rw [dif_neg hl]
    unfold lanesAt
    rw [dif_neg hl, dif_neg hl]

/-- The lanes after a half's last block total to the half's total. -/
theorem lanes_total (h : Fin 2) : ∑ l : Fin 128, lanesAt P T (lastOf h) (ix2 (0 : Fin 1) l) = halfTotal P T h :=
  lanes_sum (fun j => runSum P T (lastOf h) j)

variable (m : (ℓ : Loc nD τ sig) → Buf (Elt Ideal) ℓ)
  (hP : ∀ c : Dev nD, m ((c.tc : Thread nD τ).loc main_arg0) = fun i => ((P i : ℝ) : EReal))
  (hT : ∀ c : Dev nD, m ((c.tc : Thread nD τ).loc main_arg1) = fun i => ((T i : ℝ) : EReal))

include hP in
/-- The first input's block at point `t` is block `t` of its array. -/
theorem iblk0_eq (c : Dev nD) (t : Fin cfg0.N) :
    (iblk m c 0 t : Vec Ideal S8192x25 .f32) = fun y => ((blockOf P (blk t) y : ℝ) : EReal) := by
  funext y
  unfold iblk
  rw [View.read_apply]
  show V m c main_arg0 _ = _
  rw [V_main_arg0, hP c]
  refine congrArg (fun i => ((P i : ℝ) : EReal)) (funext fun a => Fin.ext ?_)
  match a with
  | ⟨0, _⟩ =>
    show win0_0.index t 0 * 8192 + 1 * (y 0).val = t.val * 8192 + (y 0).val
    rw [(idx0_facts t).1]; omega
  | ⟨1, _⟩ =>
    show win0_0.index t 1 * 25 + 1 * (y 1).val = (y 1).val
    rw [(idx0_facts t).2]; omega

include hT in
/-- The second input's likewise. -/
theorem iblk1_eq (c : Dev nD) (t : Fin cfg0.N) :
    (iblk m c 1 t : Vec Ideal S8192x25 .f32) = fun y => ((blockOf T (blk t) y : ℝ) : EReal) := by
  funext y
  unfold iblk
  rw [View.read_apply]
  show V m c main_arg1 _ = _
  rw [V_main_arg1, hT c]
  refine congrArg (fun i => ((T i : ℝ) : EReal)) (funext fun a => Fin.ext ?_)
  match a with
  | ⟨0, _⟩ =>
    show win0_1.index t 0 * 8192 + 1 * (y 0).val = t.val * 8192 + (y 0).val
    rw [(idx1_facts t).1]; omega
  | ⟨1, _⟩ =>
    show win0_1.index t 1 * 25 + 1 * (y 1).val = (y 1).val
    rw [(idx1_facts t).2]; omega

end Cert.KernelIdeal.Points

end
-- ==== Proof.RunningSum.lean ====
/-
  The induction over the grid's points.

  After point `n` the carried lanes hold the specification's running sums (zeros past lane 24), whichever of the
  three control cases the point is in; hence the output block stored at a half's last point is the half's total in
  lane 0 and zeros elsewhere.
-/
import proofs.«116759_j5935644803606_2_alg».proof.Proof.PointBlocks

noncomputable section

open scoped BigOperators

namespace Cert.KernelIdeal.Points

open Cert.KernelIdeal Cert.KernelIdeal.Gen Idealize.ShloMosaic Idealize.ShloMosaic.TcCoe Idealize.SL.Sem
open Idealize.ShloMosaic.ValueIdx Cert.SoftmaxLoss Cert.KernelIdeal.CaseValue Cert.KernelIdeal.BodyValue
open Cert.KernelIdeal.Accumulation

variable (P T : SIn.Idx → ℝ) (m : (ℓ : Loc nD τ sig) → Buf (Elt Ideal) ℓ)
  (hP : ∀ c : Dev nD, m ((c.tc : Thread nD τ).loc main_arg0) = fun i => ((P i : ℝ) : EReal))
  (hT : ∀ c : Dev nD, m ((c.tc : Thread nD τ).loc main_arg1) = fun i => ((T i : ℝ) : EReal))

include hP hT in
/-- A half's first point leaves the lanes at that block's running sums. -/
theorem lanes_A (c : Dev nD) (t : Fin cfg0.N) (h0 : t.val % 128 = 0) (h1 : ¬t.val % 128 = 127) :
    (outsAt0 m c t.val t.isLt).2 = fun y => ((lanesAt P T (blk t) y : ℝ) : EReal) :=
  (congrArg Prod.snd (outsAt0_A m c t h0 h1)).trans
    ((scratch_A c (grid0.coords t) (ms0_0 t) (hs0_0 t) (ms0_1 t) (hs0_1 t) (ms0_2 t) (hs0_2 t) scM0_0 (Memref.isWhole_whole _)
      (iblk m c 0 t) (iblk m c 1 t) (blockOf P (blk t)) (blockOf T (blk t)) (iblk0_eq P m hP c t) (iblk1_eq T m hT c t) ((hcond0_0 t).mpr h0) (fun h => h1 ((hcond0_1 t).mp h))).trans
      (by rw [nextLanes_first P T (blk t) h0]))

include hP hT in
/-- A middle point takes the lanes from the previous block's running sums to this block's. -/
theorem lanes_B (c : Dev nD) (t : Fin cfg0.N) (h0 : ¬t.val % 128 = 0) (h1 : ¬t.val % 128 = 127) (p : Fin 256)
    (hp : (blk t).val = p.val + 1)
    (ih : (outsAt0 m c (t.val - 1) (Nat.lt_of_le_of_lt (Nat.sub_le _ _) t.isLt)).2 = fun y => ((lanesAt P T p y : ℝ) : EReal)) :
    (outsAt0 m c t.val t.isLt).2 = fun y => ((lanesAt P T (blk t) y : ℝ) : EReal) :=
  (congrArg Prod.snd (outsAt0_B m c t h0 h1)).trans
    ((scratch_B c (grid0.coords t) (ms0_0 t) (hs0_0 t) (ms0_1 t) (hs0_1 t) (ms0_2 t) (hs0_2 t) scM0_0 (Memref.isWhole_whole _)
      (iblk m c 0 t) (iblk m c 1 t) (blockOf P (blk t)) (blockOf T (blk t)) (iblk0_eq P m hP c t) (iblk1_eq T m hT c t) (fun h => h0 ((hcond0_0 t).mp h)) (fun h => h1 ((hcond0_1 t).mp h)) _
      (lanesAt P T p) ih).trans
      (by rw [nextLanes_next P T p (blk t) hp h0]))

include hP hT in
/-- A half's last point does the same to the lanes, -/
theorem lanes_C (c : Dev nD) (t : Fin cfg0.N) (h0 : ¬t.val % 128 = 0) (h1 : t.val % 128 = 127) (p : Fin 256)
    (hp : (blk t).val = p.val + 1)
    (ih : (outsAt0 m c (t.val - 1) (Nat.lt_of_le_of_lt (Nat.sub_le _ _) t.isLt)).2 = fun y => ((lanesAt P T p y : ℝ) : EReal)) :
    (outsAt0 m c t.val t.isLt).2 = fun y => ((lanesAt P T (blk t) y : ℝ) : EReal) :=
  (congrArg Prod.snd (outsAt0_C m c t h0 h1)).trans
    ((scratch_C c (grid0.coords t) (ms0_0 t) (hs0_0 t) (ms0_1 t) (hs0_1 t) (ms0_2 t) (hs0_2 t) scM0_0 (Memref.isWhole_whole _)
      (iblk m c 0 t) (iblk m c 1 t) (blockOf P (blk t)) (blockOf T (blk t)) (iblk0_eq P m hP c t) (iblk1_eq T m hT c t) (fun h => h0 ((hcond0_0 t).mp h)) ((hcond0_1 t).mpr h1) _
      (lanesAt P T p) ih).trans
      (by rw [nextLanes_next P T p (blk t) hp h0]))

include hP hT in
/-- and stores the half's total into lane 0 of the output block. -/
theorem out_C_total (c : Dev nD) (t : Fin cfg0.N) (h0 : ¬t.val % 128 = 0) (h1 : t.val % 128 = 127) (p : Fin 256)
    (hp : (blk t).val = p.val + 1)
    (ih : (outsAt0 m c (t.val - 1) (Nat.lt_of_le_of_lt (Nat.sub_le _ _) t.isLt)).2 = fun y => ((lanesAt P T p y : ℝ) : EReal))
    (hh : Fin 2) (hlast : blk t = lastOf hh) :
    (outsAt0 m c t.val t.isLt).1
      = fun y => if (y 1).val = 0 then ((halfTotal P T hh : ℝ) : EReal) else ((0 : ℝ) : EReal) :=
  (congrArg Prod.fst (outsAt0_C m c t h0 h1)).trans
    ((out_C c (grid0.coords t) (ms0_0 t) (hs0_0 t) (ms0_1 t) (hs0_1 t) (ms0_2 t) (hs0_2 t) scM0_0 (Memref.isWhole_whole _)
      (iblk m c 0 t) (iblk m c 1 t) (blockOf P (blk t)) (blockOf T (blk t)) (iblk0_eq P m hP c t) (iblk1_eq T m hT c t) (fun h => h0 ((hcond0_0 t).mp h)) ((hcond0_1 t).mpr h1) _
      (lanesAt P T p) ih).trans
      (by rw [nextLanes_next P T p (blk t) hp h0, hlast, lanes_total]))

include hP hT in
/-- After every point the lanes hold the running sums: by induction on the point. -/
theorem lanes_eq (c : Dev nD) : ∀ (n : ℕ) (hn : n < cfg0.N),
    (outsAt0 m c n hn).2 = fun y => ((lanesAt P T ⟨n, lt_of_lt_of_eq hn N_0⟩ y : ℝ) : EReal)
  | 0, hn => lanes_A P T m hP hT c ⟨0, hn⟩ (Nat.zero_mod _) (by show ¬0 % 128 = 127; decide)
  | n + 1, hn => by
    have hN : n + 1 < 256 := lt_of_lt_of_eq hn N_0
    by_cases h0 : (n + 1) % 128 = 0
    · exact lanes_A P T m hP hT c ⟨n + 1, hn⟩ h0 (by show ¬(n + 1) % 128 = 127; omega)
    · by_cases h1 : (n + 1) % 128 = 127
      · exact lanes_C P T m hP hT c ⟨n + 1, hn⟩ h0 h1 ⟨n, by omega⟩ rfl (lanes_eq c n (Nat.lt_of_succ_lt hn))
      · exact lanes_B P T m hP hT c ⟨n + 1, hn⟩ h0 h1 ⟨n, by omega⟩ rfl (lanes_eq c n (Nat.lt_of_succ_lt hn))

include hP hT in
/-- The output block at a half's last point: the half's total in lane 0, zeros in the other lanes. -/
theorem out_at_last (c : Dev nD) (t : Fin cfg0.N) (h127 : t.val % 128 = 127) :
    (outsAt0 m c t.val t.isLt).1
      = fun y => if (y 1).val = 0
          then ((halfTotal P T ⟨t.val / 128, by have := lt_of_lt_of_eq t.isLt N_0; omega⟩ : ℝ) : EReal) else ((0 : ℝ) : EReal) := by
  have hN : t.val < 256 := lt_of_lt_of_eq t.isLt N_0
  exact out_C_total P T m hP hT c t (by omega) h127 ⟨t.val - 1, by omega⟩ (by show t.val = t.val - 1 + 1; omega)
    (lanes_eq P T m hP hT c (t.val - 1) _) ⟨t.val / 128, by omega⟩
    (Fin.ext (by show t.val = t.val / 128 * 128 + 127; omega))

end Cert.KernelIdeal.Points

end
-- ==== Proof.lean ====
/-
  The proof of `Cert.Claim`: the kernel and the reference compute the same loss.

  Both programs take two arrays of 2097152 rows and 25 columns and return one number: the mean, over the first 24
  columns of every row, of the squared difference between three times a softmax of the first array — taken within
  each of the six groups of four consecutive columns — and the second array (`Cert.SoftmaxLoss.loss`).

  The reference subtracts each group's maximum before exponentiating; the kernel does not. With real inputs the
  maximum is a real number `M`, and `exp (x − M) / ∑ exp (x_k − M) = exp x / ∑ exp x_k`, so the two softmaxes agree.
  The kernel obtains a group's sum of exponentials as a product with the 24 × 24 matrix of ones within a group and
  zeros across groups. The reference averages over the 24 columns and then over the rows; the kernel adds the
  squared errors block by block into 24 running column sums per half of the rows, adds those up at the end of each
  half, adds the two halves, and divides once by `2097152 · 24 = 50331648`. Over the reals these are the same
  number. The precondition (every input entry finite) is what makes every entry a real number: the softmax
  identity and the exchange of sums and quotients are used over the reals only.

  The three frames are the generated ones (the reference's is its generated run with the result dropped); the ideal
  pass rewrote nothing, so `preserves` is trivial.
-/
import proofs.«116759_j5935644803606_2_alg».proof.Defs
import proofs.«116759_j5935644803606_2_alg».proof.Proof.Gen.Kernel
import proofs.«116759_j5935644803606_2_alg».proof.Proof.Gen.Kernel.Skeleton
import proofs.«116759_j5935644803606_2_alg».proof.Proof.Gen.Kernel.Launch
import proofs.«116759_j5935644803606_2_alg».proof.Proof.Gen.Kernel.Points
import proofs.«116759_j5935644803606_2_alg».proof.Proof.Gen.Kernel.Frame
import proofs.«116759_j5935644803606_2_alg».proof.Proof.Gen.KernelIdeal
import proofs.«116759_j5935644803606_2_alg».proof.Proof.Gen.KernelIdeal.Skeleton
import proofs.«116759_j5935644803606_2_alg».proof.Proof.Gen.KernelIdeal.Launch
import proofs.«116759_j5935644803606_2_alg».proof.Proof.Gen.KernelIdeal.Points
import proofs.«116759_j5935644803606_2_alg».proof.Proof.Gen.KernelIdeal.Frame
import proofs.«116759_j5935644803606_2_alg».proof.Proof.Gen.ReferenceIdeal
import proofs.«116759_j5935644803606_2_alg».proof.Proof.Gen.Pre_finite_inputs
import proofs.«116759_j5935644803606_2_alg».proof.Proof.Gen.ReferenceIdeal.Run
import proofs.«116759_j5935644803606_2_alg».proof.Proof.Gen.ReferenceIdeal.Read
import proofs.«116759_j5935644803606_2_alg».proof.Proof.FiniteInputs
import proofs.«116759_j5935644803606_2_alg».proof.Proof.ReferenceLoss
import proofs.«116759_j5935644803606_2_alg».proof.Proof.KernelResult
import proofs.«116759_j5935644803606_2_alg».proof.Proof.RunningSum
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From finite inputs that agree, both programs end with the loss of the inputs' real values. -/
theorem algebraic : Cert.algebraic_KernelIdeal_ReferenceIdeal := by
  intro m ρ m' ρ' hpre hagree
  obtain ⟨P, T, hP0, hT0⟩ := Cert.FiniteInputs.real_of_pre _ _ (hpre 0)
  have hP : ∀ c : Dev Cert.KernelIdeal.nD,
      m ((c.tc : Thread Cert.KernelIdeal.nD Cert.KernelIdeal.τ).loc Cert.KernelIdeal.main_arg0) = fun i => ((P i : ℝ) : EReal) :=
    fun c => by obtain rfl : c = 0 := Subsingleton.elim _ _; exact hP0
  have hT : ∀ c : Dev Cert.KernelIdeal.nD,
      m ((c.tc : Thread Cert.KernelIdeal.nD Cert.KernelIdeal.τ).loc Cert.KernelIdeal.main_arg1) = fun i => ((T i : ℝ) : EReal) :=
    fun c => by obtain rfl : c = 0 := Subsingleton.elim _ _; exact hT0
  refine ⟨fun _ => (fun _ => ((Cert.SoftmaxLoss.loss P T : ℝ) : EReal)), ?_, ?_⟩
  · exact Cert.KernelIdeal.Result.run_of_points m ρ P T
      (fun c t h127 => Cert.KernelIdeal.Points.out_at_last P T m hP hT c t h127)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, (hagree c).1, (hagree c).2, hP c, hT c]
    exact Cert.ReferenceLoss.reference_eq P T

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
